-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x256 .f32) (main_arg1 : FVec F S10000x10000 .f32) (main_arg2 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x256 : Shape := ⟨2, ![10000, 256]⟩
abbrev S10000x10000 : Shape := ⟨2, ![10000, 10000]⟩
abbrev S256x256 : Shape := ⟨2, ![256, 256]⟩
abbrev S200x10000 : Shape := ⟨2, ![200, 10000]⟩
abbrev S400x256 : Shape := ⟨2, ![400, 256]⟩
abbrev S200x256 : Shape := ⟨2, ![200, 256]⟩

abbrev nBuf : Space → Nat
  | .hbm => 4
  | .vmem => 9
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x256, .f32⟩
  | .local _ .vmem, ⟨5, _⟩ => ⟨S256x256, .f32⟩
  | .local _ .vmem, ⟨6, _⟩ => ⟨S400x256, .f32⟩
  | .local _ .vmem, ⟨7, _⟩ => ⟨S400x256, .f32⟩
  | .local _ .vmem, ⟨8, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S200x10000_S200x10000_0_0 : ∀ a, (![0, 0] : Fin 2 → Nat) a + S200x10000.size a ≤ S200x10000.size a
  h_S200x10000 : 0 < S200x10000.numel
  inb_S400x256_S200x256_0_0 : ∀ a, (![0, 0] : Fin 2 → Nat) a + S200x256.size a ≤ S400x256.size a
  h_S200x256 : 0 < S200x256.numel
  inb_S400x256_S200x256_200_0 : ∀ a, (![200, 0] : Fin 2 → Nat) a + S200x256.size a ≤ S400x256.size a
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S10000x256.size a
  hwx0_2 : ∀ i : grid0.Coords, EltTy.bits .f32 = 32 ∨ (Rect.block (s := S10000x256) S10000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S10000x256.size a
  hwx0_4 : ∀ i : grid0.Coords, EltTy.bits .f32 = 32 ∨ (Rect.block (s := S10000x256) S400x256.size (cc0_transform_4 i) (hinb0_4 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .hbm, ⟨4, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.LibSharedArrays.lean ====
/-
  One array handed to a kernel through several input windows.

  A pipeline holds each window's array separately, window by window, at a share of the window's own; the launch hands
  over the DISTINCT buffers behind the arrays, each whole at the full share. When several windows read one buffer the
  buffer's full share has to be dealt among them. Two facts, for any window layout:

  * regrouping — the windows are partitioned by the buffer behind their array, so the distinct buffers entail any
    window-indexed family of resources as soon as each buffer by itself entails the family over the windows on it;
  * dealing — one points-to at the full share is three points-tos of the same contents at the shares
    left, right·left, right·right (the tree share's two halves, the right one halved again), and back.
-/
import Idealize.ShloMosaic.Lib.Pipeline.Launch
import Idealize.ShloMosaic.Lib.Pipeline.Frame
import Idealize.ShloMosaic.Lib.Pipeline.FrameSuffix

noncomputable section

namespace Cert.Lib.SharedArrays

open Idealize.ShloMosaic Idealize.ShloMosaic.Pipeline
open Idealize.SL
open Idealize.SL.BI (sProp bigSep bigSep_mono bigSep_biUnion)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The windows, grouped by the buffer behind their array, are all the windows. -/
theorem biUnion_fibers {gr W : Nat} (win : Fin W → WinSpec sig gr) :
    (Finset.univ.image (arrRef win)).biUnion (fun b => Finset.univ.filter fun w => arrRef win w = b) = Finset.univ := by
  ext w
  simp only [Finset.mem_biUnion, Finset.mem_image, Finset.mem_univ, true_and, Finset.mem_filter, iff_true]
  exact ⟨arrRef win w, ⟨w, rfl⟩, rfl⟩

/-- A family over the windows whose array lies among the buffers `s`, grouped buffer by buffer. -/
theorem bigSep_fiberwise {gr W : Nat} (win : Fin W → WinSpec sig gr) (P : Fin W → sProp 𝕄) (s : Finset (Ref sig .tc)) :
    bigSep (Finset.univ.filter fun w => arrRef win w ∈ s) P
      = bigSep s fun b => bigSep (Finset.univ.filter fun w => arrRef win w = b) P := by
  classical
  induction s using Finset.induction_on with
  | empty => simp
  | insert b s hb ih =>
    have hd : Disjoint (Finset.univ.filter fun w => arrRef win w = b) (Finset.univ.filter fun w => arrRef win w ∈ s) :=
      Finset.disjoint_filter.mpr fun w _ h₁ h₂ => hb (h₁ ▸ h₂)
    have hu : (Finset.univ.filter fun w => arrRef win w ∈ insert b s)
        = (Finset.univ.filter fun w => arrRef win w = b) ∪ (Finset.univ.filter fun w => arrRef win w ∈ s) := by
      ext w; simp [Finset.mem_insert]
    rw [BI.bigSep_insert hb, ← ih, hu, BI.bigSep_union hd]

/-- Every window's array lies among the buffers behind the arrays. -/
theorem filter_image_eq_univ {gr W : Nat} (win : Fin W → WinSpec sig gr) :
    (Finset.univ.filter fun w => arrRef win w ∈ Finset.univ.image (arrRef win)) = Finset.univ := by
  ext w; simp

/-- REGROUPING, as an equality: a family over all windows is the family over the windows on each buffer, buffer by buffer. -/
theorem bigSep_windows_eq {gr W : Nat} (win : Fin W → WinSpec sig gr) (P : Fin W → sProp 𝕄) :
    bigSep Finset.univ P
      = bigSep (Finset.univ.image (arrRef win)) fun b => bigSep (Finset.univ.filter fun w => arrRef win w = b) P := by
  rw [← bigSep_fiberwise, filter_image_eq_univ]

/-- JOINING (the converse of dealing, at a region's exit). If the resources of the windows on each buffer entail the buffer
    whole at the full share at contents `V`, then the windows' resources together entail the distinct buffers at `V`. -/
theorem entails_arrBufs {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      bigSep (Finset.univ.filter fun w => arrRef win w = b) P ⊢ ((((c.tc : Thread nD τ).loc b) ↦{fullShare} V b : sProp 𝕄))) :
    bigSep Finset.univ P ⊢ (arrBufs win c V : sProp 𝕄) := by
  classical
  rw [bigSep_windows_eq win P]
  unfold arrBufs
  exact bigSep_mono h

/-- REGROUPING. If each distinct buffer, whole at the full share at contents `V`, entails the resources `P w` of the
    windows `w` whose array it is, then the distinct buffers together entail `P` over every window. -/
theorem arrBufs_entails {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      ((((c.tc : Thread nD τ).loc b) ↦{fullShare} V b : sProp 𝕄)) ⊢ bigSep (Finset.univ.filter fun w => arrRef win w = b) P) :
    (arrBufs win c V : sProp 𝕄) ⊢ bigSep Finset.univ P := by
  classical
  unfold arrBufs
  have hflat := bigSep_biUnion (M := 𝕄) (Finset.univ.image (arrRef win))
    (fun b => Finset.univ.filter fun w => arrRef win w = b) (Φ := P)
  rw [biUnion_fibers] at hflat
  exact (bigSep_mono h).trans hflat

/-- REGROUPING, both ways at once. -/
theorem arrBufs_iff {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      ((((c.tc : Thread nD τ).loc b) ↦{fullShare} V b : sProp 𝕄)) ⊣⊢ bigSep (Finset.univ.filter fun w => arrRef win w = b) P) :
    (arrBufs win c V : sProp 𝕄) ⊣⊢ bigSep Finset.univ P :=
  ⟨arrBufs_entails win c V P fun b hb => (h b hb).1, entails_arrBufs win c V P fun b hb => (h b hb).2⟩

/-- DEALING. One points-to at the full share is three of the same contents, at the left half, the left half of the
    right half and the right half of the right half; the three together are the full share again. -/
theorem pointsTo_deal3 {ℓ : Loc nD τ sig} (I : Finset (Idx ℓ)) (f : Buf Val ℓ) :
    (ℓ ↦[I]{fullShare} f : sProp 𝕄)
      ⊣⊢ iprop((ℓ ↦[I]{fullShare.left} f) ∗ (ℓ ↦[I]{fullShare.right.left} f) ∗ ℓ ↦[I]{fullShare.right.right} f) :=
  (pointsTo_share (PosShare.mem_left_op_right fullShare)).trans
    ⟨sep_mono .rfl (pointsTo_share (PosShare.mem_left_op_right fullShare.right)).1,
     sep_mono .rfl (pointsTo_share (PosShare.mem_left_op_right fullShare.right)).2⟩

/-- The three shares of the deal, for a window's position among the three windows on one buffer. -/
def share3 : Fin 3 → PosShare TreeShare
  | 0 => fullShare.left
  | 1 => fullShare.right.left
  | 2 => fullShare.right.right

/-- A core's unscoped buffers are the distinct buffers behind the windows' arrays and the rest, whether or not
    windows share an array. -/
theorem unscopedBufs_eq {gr W : Nat} (win : Fin W → WinSpec sig gr) (hunscoped : ∀ w, (arrRef win w).isScoped = false) (c : Dev nD)
    (V : (b : Ref sig .tc) → Buf Val ((c.tc : Thread nD τ).loc b)) :
    (unscopedBufs c V : sProp 𝕄) = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs unscopedRest arrBufs
  rw [BI.bigSep_sdiff_split hA]
  rfl

/-! ## The host lines after a region whose windows share arrays -/

section Tail

variable {Λ₀ : Idealize.SL.Sem.Labels} {P : Type} [Fintype P] [DecidableEq P]
variable (pcs : P → PCfg sig Λ₀ Val) (defs₀ : Defs nD τ sig Val Λ₀) (𝒱₀ : Variants)

local notation "𝔻" => Pipeline.defs pcs defs₀
local notation "𝕍" => Variants.lift 𝒱₀

omit [Fintype P] [DecidableEq P] in
set_option backward.isDefEq.respectTransparency.types false in
/-- The lines after the region, run from the windows' resources `Pw` and the bypassing buffers. The windows' resources
    join into the distinct buffers behind the arrays at the exit contents `Wv` (`hjoin`) and are dealt from them again
    (`hdeal`); no line writes an array (`hkeep`). The lines then run over the core's unscoped buffers, held whole, and the
    windows' resources come back as they were beside the bypassing buffers at the lines' results. -/
theorem tail_seqs_shared [Preorder Lvl] {gr W : Nat} (win : Fin W → WinSpec sig gr) (hunscoped : ∀ w, (arrRef win w).isScoped = false)
    (c : Dev nD) (Wv : Valuation τ sig Val) (Pw : Fin W → sProp 𝕄)
    (hjoin : bigSep Finset.univ Pw ⊢ (arrBufs win c (fun b => Wv (Proc.devRef .tc b)) : sProp 𝕄))
    (hdeal : (arrBufs win c (fun b => Wv (Proc.devRef .tc b)) : sProp 𝕄) ⊢ bigSep Finset.univ Pw)
    (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(bigSep Finset.univ Pw ∗ unscopedRest win c (fun b => StableHlo.after opss.flatten Wv (Proc.devRef .tc b))) -∗ Q' ⟨⟩)
        ∗ boundary (c.tc : Thread nD τ) ∗ bigSep Finset.univ Pw ∗ unscopedRest win c (fun b => Wv (Proc.devRef .tc b)))
      ⊢ wp frame (wpE 𝔻 𝕍 (c.tc : Thread nD τ) none) Set.univ (chain (opss.map StableHlo.seq)) Q' := by
  classical
  have hheld : ∀ Wv' : Valuation τ sig Val, (StableHlo.held (c.tc : Thread nD τ) (ucRefs τ sig) Wv' : sProp 𝕄)
      = iprop((arrBufs win c (fun b => Wv' (Proc.devRef .tc b)) : sProp 𝕄) ∗ unscopedRest win c (fun b => Wv' (Proc.devRef .tc b))) := fun Wv' => by
    rw [← unscopedBufs_held (Ix := Ix) (Name := Name) (U := U) (Lvl := Lvl) c Wv']
    exact unscopedBufs_eq win hunscoped c _
  have hsame : (arrBufs win c (fun b => StableHlo.after opss.flatten Wv (Proc.devRef .tc b)) : sProp 𝕄)
      = arrBufs win c (fun b => Wv (Proc.devRef .tc b)) := by
    unfold arrBufs
    refine BI.bigSep_congr fun b hb => ?_
    obtain ⟨w, -, rfl⟩ := Finset.mem_image.mp hb
    beta_reduce
    rw [StableHlo.after_of_forall_not_mem _ _ fun op hop => ?_]
    obtain ⟨ops, hops, hop⟩ := List.mem_flatten.mp hop
    exact hkeep ops hops op hop w
  rw [← List.append_nil (opss.map StableHlo.seq)]
  iintro ⟨Hk, Hb, Hp, Hr⟩
  ihave Ha := hjoin $$ Hp
  iapply (wp_seqs_then pcs defs₀ 𝒱₀ c (ucRefs τ sig) [] opss (fun ops ho op h => sub_ucRefs op (hsub ops ho op h)) hfresh Wv) $$ [Hb Ha Hr]
  · rw [hheld Wv]
    isplitl [Hb]; · iexact Hb
    isplitl [Ha] <;> iassumption
  iintro Hb
  rw [chain_nil, wp_pure, hheld, hsame]
  imodintro
  iapply Hk
  icases Hb with ⟨-, Ha, Hr⟩
  isplitl [Ha]
  · iapply hdeal; iexact Ha
  iexact Hr

end Tail

/-! ## The frame run of a region whose windows share arrays, @main continuing after it -/

section Frame

variable {Λ₀ : Idealize.SL.Sem.Labels} {P : Type} [Fintype P] [DecidableEq P] [∀ e, Nonempty (Val e)]
variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝕄₁" => MT nD τ sig Unit Val ℕ (UR sig nD τ) ℕ
local notation "𝔻" => Pipeline.defs (fun q => Cfg.toPCfg (Val := Val) (cfgs q)) defs₀

/-- What a run of such a program ends in: every window's array at what the library computes from the proof data, and
    every unscoped buffer that is no window's array at the results of the lines after the region, run from the exit
    contents `VN`. -/
def SharedPost (VN : Dev nD → Valuation τ sig Val) (opss : List (List (HloOp τ sig Val))) : PUnit × MemSt nD τ sig Val → Prop := fun r =>
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = StableHlo.after opss.flatten (VN c) (Proc.devRef .tc b)

set_option backward.isDefEq.respectTransparency.types false in
/-- THE FRAME RUN for a kernel of the plain class — no semaphore, scratch or table of its own, nothing carried between
    points beyond the tracked invariant — whose windows MAY SHARE ARRAYS, in an @main that continues after the region
    with the host lines `opss`. The layout comes by its fields (`hinj`, `hw`, `hne`, `harr`, `hstage`); in place of the
    arrays' distinctness the certificate says how the distinct buffers at the entry contents `V₀` are dealt to the
    windows (`hdeal0`), and, at the exit contents `VN` — `V₀` off the arrays (`hVN`) —, that the windows' holdings join
    into the distinct buffers and are dealt from them again (`hjoinN`, `hdealN`); the lines write no array (`hkeep`). -/
theorem θ_run_frame_around_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ VN : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hVN : ∀ c, ∀ b ∈ restRefs sig (cfg).spec, VN c (Proc.devRef .tc b) = V₀ c (Proc.devRef .tc b))
    (hdeal0 : ∀ c, (arrBufs (cfg).spec c (fun b => V₀ c (Proc.devRef .tc b)) : sProp 𝕄₁) ⊢ (dats p c).arrays ((dats p c).arrAt · 0))
    (hjoinN : ∀ c, (dats p c).arrays ((dats p c).arrAt · (cfg).N) ⊢ (arrBufs (cfg).spec c (fun b => VN c (Proc.devRef .tc b)) : sProp 𝕄₁))
    (hdealN : ∀ c, (arrBufs (cfg).spec c (fun b => VN c (Proc.devRef .tc b)) : sProp 𝕄₁) ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g) (SharedPost cfgs dats p VN opss) := by
  classical
  exact θ_run_region_pf_tail (fun q => (cfgs q).toPCfg (Val := Val)) (fun q => (cfgs q).toPCfg_adm) dats () hinj p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hinj) (launchToks cfgs hinj))
    (hu₀ := by
      iintro Hu; imodintro
      isplitl [Hu]; · iapply (show (ownU _ : sProp 𝕄₁) ⊢ BI.own (emb₁ (initOf (cells cfgs hinj) (launchToks cfgs hinj))) from .rfl); iexact Hu
      iapply (show (BI.emp : sProp 𝕄₁) ⊢ bigSep Finset.univ (fun _ : Dev nD => (BI.emp : sProp 𝕄₁)) from by rw [BI.bigSep_emp_const])
      iempintro)
    (V := fun c b => V₀ c (Proc.devRef .tc b)) (hmain := hmain)
    (hsplit := hdeal0)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (VN c) (Proc.devRef .tc b)))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [unscopedRestP_none, unscopedRestP_none,
        show (unscopedRest (cfg).spec c (fun b => V₀ c (Proc.devRef .tc b)) : sProp 𝕄₁)
            = unscopedRest (cfg).spec c (fun b => VN c (Proc.devRef .tc b)) from by
          unfold unscopedRest; exact BI.bigSep_congr fun b hb => by beta_reduce; rw [hVN c b hb]]
      exact tail_seqs_shared (fun q => (cfgs q).toPCfg (Val := Val)) defs₀ 𝒱₀ (cfg).spec hw.arr_unscoped c (VN c) _
        (hjoinN c) (hdealN c) opss hsub hfresh hkeep Q')
    (QY := fun c s => ∀ b ∈ restRefs sig (cfg).spec, s.mem ((c.tc : Thread nD τ).loc b) = StableHlo.after opss.flatten (VN c) (Proc.devRef .tc b))
    (hY := fun c s' => by
      rw [unscopedRestP_none]
      iintro ⟨-, HU, HSI⟩
      unfold unscopedRest
      imodintro
      iapply (pointsTo_read_all (restRefs sig (cfg).spec) (fun b => (c.tc : Thread nD τ).loc b)
        (fun b => StableHlo.after opss.flatten (VN c) (Proc.devRef .tc b)) s')
      isplitl [HU] <;> iassumption)
    (hQ := fun s h c => ⟨(h c).1, (h c).2.2⟩)

end Frame

end Cert.Lib.SharedArrays

end
-- ==== Proof.WordRegion.lean ====
/-
  The one region of the fused graph-convolution kernel, before anything is run: what the region finds in the
  argument arrays, each window's block at a grid point, what an input's staging buffer holds when the body runs
  there (its block, fetched at that point or not), the body's one branch condition in closed form (taken at the
  first grid point only), and the region's invariant with the scratch buffer named.

  The 25 grid points each read two row blocks of the adjacency matrix — rows [400t, 400t+200) and
  [400t+200, 400t+400) — through two windows of the SAME array; the feature matrix and the weight matrix are
  staged whole and fetched once; the output block is rows [400t, 400t+400).
-/
import proofs.«169278_g76141180224082_cont_9to1_m_266_16_alg».proof.Proof.Gen.Kernel.Launch
import proofs.«169278_g76141180224082_cont_9to1_m_266_16_alg».proof.Proof.Gen.Kernel.Skeleton
import proofs.«169278_g76141180224082_cont_9to1_m_266_16_alg».proof.Proof.Gen.Kernel.Points
import proofs.«169278_g76141180224082_cont_9to1_m_266_16_alg».proof.Proof.LibSharedArrays
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host line comes before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- @main is the region and nothing else: it reduces to the region continued by no line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [] [] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched, the
    block index has not moved and the body left the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch: the product of features and weights is computed at the first point only -/

/-- The condition of the body's one conditional, from the grid coordinate. -/
abbrev firstPoint (i : grid0.Coords) : Prop := (Scalar.cmpi .ne (Scalar.extui (Scalar.cmpi .eq (BitVec.ofNat 32 (i 0).val) 0#32)) 0#32) = 1#1
/-- It holds at point 0 and at no other of the 25 points. -/
theorem firstPoint_iff : ∀ t : Fin cfg0.N, firstPoint (grid0.coords t) ↔ t.val = 0 :=
  (by decide +kernel : ∀ t : Fin grid0.N, firstPoint (grid0.coords t) ↔ t.val = 0)

/-- No window is ever idle: every point reads both adjacency blocks and stores the whole output block. -/
theorem live0 : ∀ (w : Fin cfg0.W) (t : Fin cfg0.N), cfg0.idle w (grid0.coords t) = false := fun _ _ => rfl

/-! ## The staging memrefs the body is called with, and the scratch -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x256 .f32 := win0_4.stage (cfg0.slots t 4)
abbrev hs4 (t : Fin cfg0.N) : (ms4 t).IsWhole := hstage0_4 ((cfg0.slots t 4).cast nbuf0_4)
/-- The scratch that keeps the product of features and weights from the first point on. -/
abbrev scM : Memref sig .tc .vmem S10000x256 .bf16 := Memref.whole cc0_scratch0
/-- The same as a view: what the scratch holds is stated through it. -/
abbrev VS : View sig .tc .vmem S10000x256 .bf16 := (scM : Memref sig .tc .vmem S10000x256 .bf16).view
/-- One staging buffer of the output window, through which its contents are stated (the choice does not matter). -/
abbrev VO : View sig .tc .vmem S400x256 .f32 := (Memref.whole cc0_stg4_0 : Memref sig .tc .vmem S400x256 .f32).view

/-- What the launch hands the region besides the windows: the scratch, owned at some contents, and the generator
    register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Region

end
-- ==== Proof.WordFirstPoint.lean ====
/-
  The body at the FIRST grid point, run symbolically on whole staging memrefs.

  There the branch is taken: the body loads the feature matrix and the weight matrix, stores their product into the
  scratch, and then, as at every point, reads the scratch back and stores the product of each adjacency row block with
  it into one half of the output block. The run records, as lists of written pieces, what the scratch and the output
  block hold afterwards; the inputs' buffers come back as they were.
-/
import proofs.«169278_g76141180224082_cont_9to1_m_266_16_alg».proof.Proof.WordRegion

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first point's stores leave in the output block (`.1`) and in the scratch (`.2.1`), with the proof
    that from the inputs' buffers at their contents, the output block and the scratch at anything, the body runs to the
    continuation holding the inputs as they were and the two written buffers with those pieces written. -/
noncomputable def runFirst (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : firstPoint i)
    (x0 : Vec F S200x10000 .f32) (x1 : Vec F S200x10000 .f32) (x2 : Vec F S10000x256 .f32) (x3 : Vec F S256x256 .f32) :
    Σ' (L4 : List (View.Piece (Elt F) S400x256 .f32)), { LS : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__fused_body i arg1 harg1 arg2 harg2 arg3 harg3 arg4 harg4 arg5 harg5 arg6 harg6) K } := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Region

end
-- ==== Proof.WordLaterPoints.lean ====
/-
  The body at a LATER grid point (any but the first), run symbolically on whole staging memrefs.

  There the branch is not taken: the body reads the scratch, which still holds the product of features and weights
  the first point stored, and stores the product of each adjacency row block with it into one half of the output
  block. The scratch and the inputs' buffers come back as they were; the run records the pieces written to the output.
-/
import proofs.«169278_g76141180224082_cont_9to1_m_266_16_alg».proof.Proof.WordFirstPoint

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a later point's stores leave in the output block, with the proof that from the inputs' buffers at their
    contents, the scratch at contents `xs` and the output block at anything, the body runs to the continuation holding
    the inputs and the scratch as they were and the output block with those pieces written. -/
noncomputable def runLater (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : ¬firstPoint i)
    (x0 : Vec F S200x10000 .f32) (x1 : Vec F S200x10000 .f32) (x2 : Vec F S10000x256 .f32) (x3 : Vec F S256x256 .f32) (xs : Vec F S10000x256 .bf16) :
    { L4 : List (View.Piece (Elt F) S400x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__fused_body i arg1 harg1 arg2 harg2 arg3 harg3 arg4 harg4 arg5 harg5 arg6 harg6) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.Kernel.Region

end
-- ==== Proof.WordFrame.lean ====
/-
  The frame of the fused graph-convolution kernel: what every grid point leaves in the output block and in the
  scratch, the pipeline's proof data, the body's obligation at a generic point, and the run of @main.

  The first point stores the product of features and weights into the scratch and both halves of its output block;
  every later point finds the scratch as the first point left it and stores both halves of its own output block. So the
  scratch holds ONE array from the first point on (`support`), and the region's invariant is: before the first point
  the scratch at anything, afterwards the scratch at `support`.

  Two windows read row blocks of the same adjacency array. The launch hands over that array's buffer once, whole; it is
  dealt to the two windows at the two halves of the full share, and the halves join again at the region's exit.
-/
import proofs.«169278_g76141180224082_cont_9to1_m_266_16_alg».proof.Proof.WordLaterPoints

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs arrRef restRefs)
open Cert.Lib.SharedArrays (SharedPost θ_run_frame_around_shared)

/-! ## The stores of a point cover what they are read back from -/

/-- The first point's two half-block stores tile the output block. -/
theorem coverFirstOut (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : firstPoint i)
    (x0 : Vec F S200x10000 .f32) (x1 : Vec F S200x10000 .f32) (x2 : Vec F S10000x256 .f32) (x3 : Vec F S256x256 .f32) (y : S400x256.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S200x256.size (by sl_kernel_rfl) y

/-- Its one whole store covers the scratch. -/
theorem coverFirstScratch (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : firstPoint i)
    (x0 : Vec F S200x10000 .f32) (x1 : Vec F S200x10000 .f32) (x2 : Vec F S10000x256 .f32) (x3 : Vec F S256x256 .f32) (y : S10000x256.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S10000x256.size (by sl_kernel_rfl) y

/-- A later point's two half-block stores tile the output block. -/
theorem coverLaterOut (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : ¬firstPoint i)
    (x0 : Vec F S200x10000 .f32) (x1 : Vec F S200x10000 .f32) (x2 : Vec F S10000x256 .f32) (x3 : Vec F S256x256 .f32) (xs : Vec F S10000x256 .bf16) (y : S400x256.Idx) :
    ∃ pc ∈ (runLater c i arg1 harg1 arg2 harg2 arg3 harg3 arg4 harg4 arg5 harg5 arg6 harg6 hc x0 x1 x2 x3 xs).1, y ∈ pc.1.set :=
  View.cover_of_tiledL (runLater c i arg1 harg1 arg2 harg2 arg3 harg3 arg4 harg4 arg5 harg5 arg6 harg6 hc x0 x1 x2 x3 xs).1 S200x256.size (by sl_kernel_rfl) y

/-- What the first point leaves in the output block: its pieces read back. -/
def outFirst (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : firstPoint i)
    (x0 : Vec F S200x10000 .f32) (x1 : Vec F S200x10000 .f32) (x2 : Vec F S10000x256 .f32) (x3 : Vec F S256x256 .f32) : Vec F S400x256 .f32 :=
  VO.read (Elt F) (VO.writes (Elt F) VO.junk (runFirst c i arg1 harg1 arg2 harg2 arg3 harg3 arg4 harg4 arg5 harg5 arg6 harg6 hc x0 x1 x2 x3).1)

/-- What the first point leaves in the scratch: its pieces read back. -/
def supFirst (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : firstPoint i)
    (x0 : Vec F S200x10000 .f32) (x1 : Vec F S200x10000 .f32) (x2 : Vec F S10000x256 .f32) (x3 : Vec F S256x256 .f32) : Vec F S10000x256 .bf16 :=
  VS.read (Elt F) (VS.writes (Elt F) VS.junk (runFirst c i arg1 harg1 arg2 harg2 arg3 harg3 arg4 harg4 arg5 harg5 arg6 harg6 hc x0 x1 x2 x3).2.1)

/-- What a later point leaves in the output block, the scratch holding `xs`: its pieces read back. -/
def outLater (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : ¬firstPoint i)
    (x0 : Vec F S200x10000 .f32) (x1 : Vec F S200x10000 .f32) (x2 : Vec F S10000x256 .f32) (x3 : Vec F S256x256 .f32) (xs : Vec F S10000x256 .bf16) : Vec F S400x256 .f32 :=
  VO.read (Elt F) (VO.writes (Elt F) VO.junk (runLater c i arg1 harg1 arg2 harg2 arg3 harg3 arg4 harg4 arg5 harg5 arg6 harg6 hc x0 x1 x2 x3 xs).1)

/-! ## What the scratch and the output block hold, point by point -/

/-- The first grid point. -/
def t0 : Fin cfg0.N := ⟨0, by rw [show cfg0.N = 25 from N_0]; omega⟩

theorem first_t0 : firstPoint (grid0.coords t0) := (firstPoint_iff t0).mpr rfl

/-- The array the scratch holds from the first point on: what the first point's store leaves, from the feature and
    weight blocks it loads. -/
def support (c : Dev nD) : Vec F S10000x256 .bf16 :=
  supFirst c (grid0.coords t0) (ms0 t0) (hs0 t0) (ms1 t0) (hs1 t0) (ms2 t0) (hs2 t0) (ms3 t0) (hs3 t0) (ms4 t0) (hs4 t0) scM (Memref.isWhole_whole _) first_t0 (iblk m c 0 t0) (iblk m c 1 t0) (iblk m c 2 t0) (iblk m c 3 t0)

/-- What the output block holds after the body at point `t`. -/
def outAt (c : Dev nD) (t : Fin cfg0.N) : Vec F S400x256 .f32 :=
  if h : t.val = 0 then
    outFirst c (grid0.coords t) (ms0 t) (hs0 t) (ms1 t) (hs1 t) (ms2 t) (hs2 t) (ms3 t) (hs3 t) (ms4 t) (hs4 t) scM (Memref.isWhole_whole _) ((firstPoint_iff t).mpr h) (iblk m c 0 t) (iblk m c 1 t) (iblk m c 2 t) (iblk m c 3 t)
  else
    outLater c (grid0.coords t) (ms0 t) (hs0 t) (ms1 t) (hs1 t) (ms2 t) (hs2 t) (ms3 t) (hs3 t) (ms4 t) (hs4 t) scM (Memref.isWhole_whole _) (fun hc => h ((firstPoint_iff t).mp hc)) (iblk m c 0 t) (iblk m c 1 t) (iblk m c 2 t) (iblk m c 3 t) (support m c)

theorem outAt_first (c : Dev nD) (t : Fin cfg0.N) (h : t.val = 0) :
    outAt m c t = outFirst c (grid0.coords t) (ms0 t) (hs0 t) (ms1 t) (hs1 t) (ms2 t) (hs2 t) (ms3 t) (hs3 t) (ms4 t) (hs4 t) scM (Memref.isWhole_whole _) ((firstPoint_iff t).mpr h) (iblk m c 0 t) (iblk m c 1 t) (iblk m c 2 t) (iblk m c 3 t) := dif_pos h

theorem outAt_later (c : Dev nD) (t : Fin cfg0.N) (h : ¬t.val = 0) :
    outAt m c t = outLater c (grid0.coords t) (ms0 t) (hs0 t) (ms1 t) (hs1 t) (ms2 t) (hs2 t) (ms3 t) (hs3 t) (ms4 t) (hs4 t) scM (Memref.isWhole_whole _) (fun hc => h ((firstPoint_iff t).mp hc)) (iblk m c 0 t) (iblk m c 1 t) (iblk m c 2 t) (iblk m c 3 t) (support m c) := dif_neg h

/-- The region's invariant before position `n`: before the first point what the launch hands over (the scratch at
    anything), afterwards the scratch at `support`; the generator register at some state throughout. -/
def PhiS (c : Dev nD) : ℕ → sProp 𝕄
  | 0 => Pipeline.ΦA spec0 c
  | _ + 1 => iprop(iprop(owns (c : Thread nD τ) scM fullShare (support m c)) ∗ (∃ r, prngReg c r))

theorem PhiS_succ (c : Dev nD) (n : ℕ) :
    PhiS m c (n + 1) = iprop(iprop(owns (c : Thread nD τ) scM fullShare (support m c)) ∗ (∃ r, prngReg c r)) := rfl

theorem PhiS_pos (c : Dev nD) (n : ℕ) (hz : n ≠ 0) :
    PhiS m c n = iprop(iprop(owns (c : Thread nD τ) scM fullShare (support m c)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outAt`; the invariant `PhiS`; nothing owed; the adjacency
    array held by its two windows at the two halves of the full share, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at the first point: the launch's invariant hands it the scratch at anything; the run leaves the scratch at
    `support` and the output block at `outAt`. -/
theorem sound_first (c : Dev nD) :
    bodyPre m c t0 ⊢ wp frame (wpE (defs₀ (F := F)) Variants.none c none) Set.univ (bodyAt0 t0) (fun _ => bodyPost m c t0) := by
  generalize ht : (t0 : Fin cfg0.N) = t
  have h0 : t.val = 0 := by rw [← ht]; rfl
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0 t) fullShare ((dats m 0 c).after 0 t) from by
    unfold Dat.leavesExact; rw [live0 0 t], after0]
  rw [show (dats m 0 c).leavesExact 1 t = owns (c : Thread nD τ) (ms1 t) fullShare ((dats m 0 c).after 1 t) from by
    unfold Dat.leavesExact; rw [live0 1 t], after1]
  rw [show (dats m 0 c).leavesExact 2 t = owns (c : Thread nD τ) (ms2 t) fullShare ((dats m 0 c).after 2 t) from by
    unfold Dat.leavesExact; rw [live0 2 t], after2]
  rw [show (dats m 0 c).leavesExact 3 t = owns (c : Thread nD τ) (ms3 t) fullShare ((dats m 0 c).after 3 t) from by
    unfold Dat.leavesExact; rw [live0 3 t], after3]
  rw [show (dats m 0 c).leavesExact 4 t = owns (c : Thread nD τ) (ms4 t) fullShare ((dats m 0 c).after 4 t) from by
    unfold Dat.leavesExact; rw [live0 4 t], after4]
  rw [outAt_first m c t h0, Phi_castSucc m c t, (show PhiS m c t.val = Pipeline.ΦA spec0 c from by rw [h0]; rfl), PhiA_eq]
  unfold outFirst support supFirst; (try dsimp only)
  subst ht
  iintro ⟨⟨HS, Hg⟩, Ho, ⟨%d0, H0⟩, ⟨%d1, H1⟩, ⟨%d2, H2⟩, ⟨%d3, H3⟩, ⟨%d4, H4⟩⟩
  iapply ((runFirst c (grid0.coords t0) _ _ _ _ _ _ _ _ _ _ _ _ first_t0 (iblk m c 0 t0) (iblk m c 1 t0) (iblk m c 2 t0) (iblk m c 3 t0)).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS Hg]
  · isplitl [HS]
    · unfold owns; iexists _; isplitr
      swap; · iexact HS
      ipureintro; exact View.read_writes_of_cover _ _ _ _ _ (coverFirstScratch c _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverFirstOut c _ _ _ _ _ _ _ _ _ _ _ _ _ _ _ _ _ _)

set_option maxHeartbeats 4800000 in
/-- The body at a later point: the invariant hands it the scratch at `support` and takes it back unchanged; the run
    leaves the output block at `outAt`. -/
theorem sound_later (c : Dev nD) (t : Fin cfg0.N) (h0 : ¬t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0 t) fullShare ((dats m 0 c).after 0 t) from by
    unfold Dat.leavesExact; rw [live0 0 t], after0]
  rw [show (dats m 0 c).leavesExact 1 t = owns (c : Thread nD τ) (ms1 t) fullShare ((dats m 0 c).after 1 t) from by
    unfold Dat.leavesExact; rw [live0 1 t], after1]
  rw [show (dats m 0 c).leavesExact 2 t = owns (c : Thread nD τ) (ms2 t) fullShare ((dats m 0 c).after 2 t) from by
    unfold Dat.leavesExact; rw [live0 2 t], after2]
  rw [show (dats m 0 c).leavesExact 3 t = owns (c : Thread nD τ) (ms3 t) fullShare ((dats m 0 c).after 3 t) from by
    unfold Dat.leavesExact; rw [live0 3 t], after3]
  rw [show (dats m 0 c).leavesExact 4 t = owns (c : Thread nD τ) (ms4 t) fullShare ((dats m 0 c).after 4 t) from by
    unfold Dat.leavesExact; rw [live0 4 t], after4]
  rw [outAt_later m c t h0, Phi_castSucc m c t, PhiS_pos m c _ h0]
  unfold outLater; (try dsimp only)
  iintro ⟨⟨HS, Hg⟩, Ho, ⟨%d0, H0⟩, ⟨%d1, H1⟩, ⟨%d2, H2⟩, ⟨%d3, H3⟩, ⟨%d4, H4⟩⟩
  iapply ((runLater c (grid0.coords t) _ _ _ _ _ _ _ _ _ _ _ _ (fun hc => h0 ((firstPoint_iff t).mp hc)) (iblk m c 0 t) (iblk m c 1 t) (iblk m c 2 t) (iblk m c 3 t) (support m c)).2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverLaterOut c _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = t0 := Fin.ext h0
    exact sound_first m c
  · exact sound_later m c t h0

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives it back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 25 := N_0; omega), PhiA_eq]
  iintro ⟨HS, Hg⟩
  isplitl [HS]
  · iexists _; iexact HS
  iexact Hg

end Cert.Kernel.Region

end
-- ==== Proof.WordRun.lean ====
/-
  The run of @main of the fused graph-convolution kernel, and its frame.

  The adjacency array is read through two windows. The launch hands the region each distinct buffer once, whole at the
  full share; the adjacency buffer is dealt to its two windows at the left and the right half of the full share, and the
  two halves join into the whole buffer again at the region's exit. Nothing follows the region in @main, so the
  program's final memory is the region's: every argument array as it was, the result array at what the library computes
  from the proof data.
-/
import proofs.«169278_g76141180224082_cont_9to1_m_266_16_alg».proof.Proof.WordFrame

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs arrRef restRefs)
open Cert.Lib.SharedArrays (SharedPost θ_run_frame_around_shared)

/-! ## The windows' arrays and the distinct buffers behind them, one by one -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The pipeline's arrays, window by window: the adjacency buffer twice, at the two halves of the full share. -/
theorem arrays_chain (c : Dev nD) (Fn : (w : Fin cfg0.W) → Buf (Elt F) ((cfg0.win w).arr.view.loc (c.tc : Thread nD τ))) :
    ((dats m 0 c).arrays Fn : sProp 𝕄)
      = iprop((((c.tc : Thread nD τ).loc main_arg1) ↦{fullShare.left} Fn 0) ∗ (((c.tc : Thread nD τ).loc main_arg1) ↦{fullShare.right} Fn 1)
          ∗ (((c.tc : Thread nD τ).loc main_arg0) ↦{fullShare} Fn 2) ∗ (((c.tc : Thread nD τ).loc main_arg2) ↦{fullShare} Fn 3)
          ∗ (((c.tc : Thread nD τ).loc main_v0) ↦{fullShare} Fn 4)) := by
  unfold Dat.arrays
  rw [bigSep_W0, share0, share1, share2, share3, share4,
    (arr_whole0 0).set_eq_univ, (arr_whole0 2).set_eq_univ, (arr_whole0 3).set_eq_univ, (arr_whole0 4).set_eq_univ]

/-- The distinct buffers behind the arrays: four, the adjacency buffer once. -/
theorem arrBufs_chain (c : Dev nD) (Vb : (b : Ref sig .tc) → Buf (Elt F) ((c.tc : Thread nD τ).loc b)) :
    (arrBufs spec0 c Vb : sProp 𝕄)
      = iprop((((c.tc : Thread nD τ).loc main_arg1) ↦{fullShare} Vb main_arg1) ∗ (((c.tc : Thread nD τ).loc main_arg0) ↦{fullShare} Vb main_arg0)
          ∗ (((c.tc : Thread nD τ).loc main_arg2) ↦{fullShare} Vb main_arg2) ∗ (((c.tc : Thread nD τ).loc main_v0) ↦{fullShare} Vb main_v0)) := by
  unfold arrBufs
  rw [show Finset.univ.image (arrRef spec0) = {main_arg1, main_arg0, main_arg2, main_v0} from by decide,
    BI.bigSep_insert (by decide), BI.bigSep_insert (by decide), BI.bigSep_insert (by decide), BI.bigSep_singleton]
  rfl

/-! ## The contents at the region's exit -/

open Classical in
/-- Core `c`'s buffer contents when the region is left: the result array at what the write-backs made it, every other
    buffer as the region found it. -/
def VN (c : Dev nD) : Valuation τ sig (Elt F) :=
  Function.update (V0 m c) (Proc.devRef .tc main_v0) ((dats m 0 c).arrAt 4 cfg0.N)

theorem VN_out (c : Dev nD) : VN m c (Proc.devRef .tc main_v0) = (dats m 0 c).arrAt 4 cfg0.N := by
  unfold VN; exact Function.update_self _ _ _

theorem VN_of_ne (c : Dev nD) (b : Ref sig .tc) (hb : b ≠ main_v0) : VN m c (Proc.devRef .tc b) = V m c b := by
  unfold VN
  exact Function.update_of_ne (fun e => hb (Proc.devRef_injective _ e)) _ _

/-- An input's array is never written: at the exit it is what the region found. -/
theorem arrAt_in0 (c : Dev nD) (n : ℕ) : (dats m 0 c).arrAt 0 n = V m c main_arg1 := ((dats m 0 c).arrAt_in 0 rfl n).trans (A_eq m c 0)
theorem arrAt_in1 (c : Dev nD) (n : ℕ) : (dats m 0 c).arrAt 1 n = V m c main_arg1 := ((dats m 0 c).arrAt_in 1 rfl n).trans (A_eq m c 1)
theorem arrAt_in2 (c : Dev nD) (n : ℕ) : (dats m 0 c).arrAt 2 n = V m c main_arg0 := ((dats m 0 c).arrAt_in 2 rfl n).trans (A_eq m c 2)
theorem arrAt_in3 (c : Dev nD) (n : ℕ) : (dats m 0 c).arrAt 3 n = V m c main_arg2 := ((dats m 0 c).arrAt_in 3 rfl n).trans (A_eq m c 3)

/-- DEALING at the entry: the adjacency buffer's full share is split between its two windows. -/
theorem deal_entry (c : Dev nD) :
    (arrBufs spec0 c (fun b => V0 m c (Proc.devRef .tc b)) : sProp 𝕄) ⊢ (dats m 0 c).arrays ((dats m 0 c).arrAt · 0) := by
  rw [arrBufs_chain, arrays_chain, arrAt_in0, arrAt_in1, arrAt_in2, arrAt_in3]
  iintro ⟨Ha, Hx, Hw, Ho⟩
  ihave Hlr := (pointsTo_share (PosShare.mem_left_op_right fullShare)).1 $$ Ha
  icases Hlr with ⟨Hl, Hr⟩
  isplitl [Hl]; · iexact Hl
  isplitl [Hr]; · iexact Hr
  isplitl [Hx]; · iexact Hx
  isplitl [Hw]; · iexact Hw
  iexact Ho

/-- JOINING at the exit: the two halves of the adjacency buffer are the whole buffer again. -/
theorem join_exit (c : Dev nD) :
    (dats m 0 c).arrays ((dats m 0 c).arrAt · cfg0.N) ⊢ (arrBufs spec0 c (fun b => VN m c (Proc.devRef .tc b)) : sProp 𝕄) := by
  rw [arrBufs_chain, arrays_chain, arrAt_in0, arrAt_in1, arrAt_in2, arrAt_in3,
    VN_of_ne m c main_arg1 (by decide), VN_of_ne m c main_arg0 (by decide), VN_of_ne m c main_arg2 (by decide), VN_out]
  iintro ⟨Hl, Hr, Hx, Hw, Ho⟩
  isplitl [Hl Hr]
  · iapply (pointsTo_share (PosShare.mem_left_op_right fullShare)).2
    isplitl [Hl]; · iexact Hl
    iexact Hr
  isplitl [Hx]; · iexact Hx
  isplitl [Hw]; · iexact Hw
  iexact Ho

/-- and DEALING them again from it. -/
theorem deal_exit (c : Dev nD) :
    (arrBufs spec0 c (fun b => VN m c (Proc.devRef .tc b)) : sProp 𝕄) ⊢ (dats m 0 c).arrays ((dats m 0 c).arrAt · cfg0.N) := by
  rw [arrBufs_chain, arrays_chain, arrAt_in0, arrAt_in1, arrAt_in2, arrAt_in3,
    VN_of_ne m c main_arg1 (by decide), VN_of_ne m c main_arg0 (by decide), VN_of_ne m c main_arg2 (by decide), VN_out]
  iintro ⟨Ha, Hx, Hw, Ho⟩
  ihave Hlr := (pointsTo_share (PosShare.mem_left_op_right fullShare)).1 $$ Ha
  icases Hlr with ⟨Hl, Hr⟩
  isplitl [Hl]; · iexact Hl
  isplitl [Hr]; · iexact Hr
  isplitl [Hx]; · iexact Hx
  isplitl [Hw]; · iexact Hw
  iexact Ho

/-- Off the arrays the exit contents are the entry contents. -/
theorem VN_rest (c : Dev nD) : ∀ b ∈ restRefs sig spec0, VN m c (Proc.devRef .tc b) = V0 m c (Proc.devRef .tc b) := fun b hb =>
  VN_of_ne m c b fun e => (Finset.mem_sdiff.mp hb).2 (Finset.mem_image.mpr ⟨4, Finset.mem_univ _, e.symm⟩)

/-! ## The run and the frame -/

set_option backward.isDefEq.respectTransparency.types false in
/-- From any memory with zero counters every weakly fair execution of @main terminates, and every final state has every
    array of the pipeline at what the library computes from the proof data. -/
theorem run_main : θ_run defs (onTc (τ := τ) (main (F := F))) (s₀ m ρ) (SharedPost cfgs (dats m) 0 (VN m) []) :=
  θ_run_frame_around_shared cfgs (dats m) (0 : Fin 1) defs₀ Variants.none
    (hinj := cellOf_inj) (hw := winFacts₀0) (hne := block_pos0) (harr := arr_whole0) (hstage := stage_whole0)
    (m := m) (g := ρ) (main := main)
    (hbody := fun c => (body_obligation m c).loose) (howed := fun _ _ => rfl)
    (V₀ := V0 m) (VN := VN m) (opss := [])
    (hsub := fun _ h => absurd h List.not_mem_nil) (hfresh := fun _ h => absurd h List.not_mem_nil)
    (hkeep := fun _ h => absurd h List.not_mem_nil)
    (hmain := hmain m Variants.none) (hVN := VN_rest m)
    (hdeal0 := deal_entry m) (hjoinN := join_exit m) (hdealN := deal_exit m) (hin := hin m) (hout := hout m)

/-- The run with the result array named and the argument arrays unchanged. -/
theorem run_named : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 4,
      ((h c).1 2).trans ((arrAt_in2 m c _).trans (V_main_arg0 m c)),
      ((h c).1 0).trans ((arrAt_in0 m c _).trans (V_main_arg1 m c)),
      ((h c).1 3).trans ((arrAt_in3 m c _).trans (V_main_arg2 m c))⟩) (run_main m ρ)

/-- THE FRAME: @main runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Region

end
-- ==== Proof.IdealRegion.lean ====
/-
  The one region of the fused graph-convolution kernel, before anything is run: what the region finds in the
  argument arrays, each window's block at a grid point, what an input's staging buffer holds when the body runs
  there (its block, fetched at that point or not), the body's one branch condition in closed form (taken at the
  first grid point only), and the region's invariant with the scratch buffer named.

  The 25 grid points each read two row blocks of the adjacency matrix — rows [400t, 400t+200) and
  [400t+200, 400t+400) — through two windows of the SAME array; the feature matrix and the weight matrix are
  staged whole and fetched once; the output block is rows [400t, 400t+400).
-/
import proofs.«169278_g76141180224082_cont_9to1_m_266_16_alg».proof.Proof.Gen.KernelIdeal.Launch
import proofs.«169278_g76141180224082_cont_9to1_m_266_16_alg».proof.Proof.Gen.KernelIdeal.Skeleton
import proofs.«169278_g76141180224082_cont_9to1_m_266_16_alg».proof.Proof.Gen.KernelIdeal.Points
import proofs.«169278_g76141180224082_cont_9to1_m_266_16_alg».proof.Proof.LibSharedArrays
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host line comes before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- @main is the region and nothing else: it reduces to the region continued by no line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [] [] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched, the
    block index has not moved and the body left the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch: the product of features and weights is computed at the first point only -/

/-- The condition of the body's one conditional, from the grid coordinate. -/
abbrev firstPoint (i : grid0.Coords) : Prop := (Scalar.cmpi .ne (Scalar.extui (Scalar.cmpi .eq (BitVec.ofNat 32 (i 0).val) 0#32)) 0#32) = 1#1
/-- It holds at point 0 and at no other of the 25 points. -/
theorem firstPoint_iff : ∀ t : Fin cfg0.N, firstPoint (grid0.coords t) ↔ t.val = 0 :=
  (by decide +kernel : ∀ t : Fin grid0.N, firstPoint (grid0.coords t) ↔ t.val = 0)

/-- No window is ever idle: every point reads both adjacency blocks and stores the whole output block. -/
theorem live0 : ∀ (w : Fin cfg0.W) (t : Fin cfg0.N), cfg0.idle w (grid0.coords t) = false := fun _ _ => rfl

/-! ## The staging memrefs the body is called with, and the scratch -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x256 .f32 := win0_4.stage (cfg0.slots t 4)
abbrev hs4 (t : Fin cfg0.N) : (ms4 t).IsWhole := hstage0_4 ((cfg0.slots t 4).cast nbuf0_4)
/-- The scratch that keeps the product of features and weights from the first point on. -/
abbrev scM : Memref sig .tc .vmem S10000x256 .bf16 := Memref.whole cc0_scratch0
/-- The same as a view: what the scratch holds is stated through it. -/
abbrev VS : View sig .tc .vmem S10000x256 .bf16 := (scM : Memref sig .tc .vmem S10000x256 .bf16).view
/-- One staging buffer of the output window, through which its contents are stated (the choice does not matter). -/
abbrev VO : View sig .tc .vmem S400x256 .f32 := (Memref.whole cc0_stg4_0 : Memref sig .tc .vmem S400x256 .f32).view

/-- What the launch hands the region besides the windows: the scratch, owned at some contents, and the generator
    register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Region

end
-- ==== Proof.IdealFirstPoint.lean ====
/-
  The body at the FIRST grid point, run symbolically on whole staging memrefs.

  There the branch is taken: the body loads the feature matrix and the weight matrix, stores their product into the
  scratch, and then, as at every point, reads the scratch back and stores the product of each adjacency row block with
  it into one half of the output block. The run records, as lists of written pieces, what the scratch and the output
  block hold afterwards; the inputs' buffers come back as they were.
-/
import proofs.«169278_g76141180224082_cont_9to1_m_266_16_alg».proof.Proof.IdealRegion

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first point's stores leave in the output block (`.1`) and in the scratch (`.2.1`), with the proof
    that from the inputs' buffers at their contents, the output block and the scratch at anything, the body runs to the
    continuation holding the inputs as they were and the two written buffers with those pieces written. -/
noncomputable def runFirst (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : firstPoint i)
    (x0 : Vec F S200x10000 .f32) (x1 : Vec F S200x10000 .f32) (x2 : Vec F S10000x256 .f32) (x3 : Vec F S256x256 .f32) :
    Σ' (L4 : List (View.Piece (Elt F) S400x256 .f32)), { LS : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__fused_body i arg1 harg1 arg2 harg2 arg3 harg3 arg4 harg4 arg5 harg5 arg6 harg6) K } := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Region

end
-- ==== Proof.IdealLaterPoints.lean ====
/-
  The body at a LATER grid point (any but the first), run symbolically on whole staging memrefs.

  There the branch is not taken: the body reads the scratch, which still holds the product of features and weights
  the first point stored, and stores the product of each adjacency row block with it into one half of the output
  block. The scratch and the inputs' buffers come back as they were; the run records the pieces written to the output.
-/
import proofs.«169278_g76141180224082_cont_9to1_m_266_16_alg».proof.Proof.IdealFirstPoint

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a later point's stores leave in the output block, with the proof that from the inputs' buffers at their
    contents, the scratch at contents `xs` and the output block at anything, the body runs to the continuation holding
    the inputs and the scratch as they were and the output block with those pieces written. -/
noncomputable def runLater (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : ¬firstPoint i)
    (x0 : Vec F S200x10000 .f32) (x1 : Vec F S200x10000 .f32) (x2 : Vec F S10000x256 .f32) (x3 : Vec F S256x256 .f32) (xs : Vec F S10000x256 .bf16) :
    { L4 : List (View.Piece (Elt F) S400x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__fused_body i arg1 harg1 arg2 harg2 arg3 harg3 arg4 harg4 arg5 harg5 arg6 harg6) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.KernelIdeal.Region

end
-- ==== Proof.IdealFrame.lean ====
/-
  The frame of the fused graph-convolution kernel: what every grid point leaves in the output block and in the
  scratch, the pipeline's proof data, the body's obligation at a generic point, and the run of @main.

  The first point stores the product of features and weights into the scratch and both halves of its output block;
  every later point finds the scratch as the first point left it and stores both halves of its own output block. So the
  scratch holds ONE array from the first point on (`support`), and the region's invariant is: before the first point
  the scratch at anything, afterwards the scratch at `support`.

  Two windows read row blocks of the same adjacency array. The launch hands over that array's buffer once, whole; it is
  dealt to the two windows at the two halves of the full share, and the halves join again at the region's exit.
-/
import proofs.«169278_g76141180224082_cont_9to1_m_266_16_alg».proof.Proof.IdealLaterPoints

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs arrRef restRefs)
open Cert.Lib.SharedArrays (SharedPost θ_run_frame_around_shared)

/-! ## The stores of a point cover what they are read back from -/

/-- The first point's two half-block stores tile the output block. -/
theorem coverFirstOut (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : firstPoint i)
    (x0 : Vec F S200x10000 .f32) (x1 : Vec F S200x10000 .f32) (x2 : Vec F S10000x256 .f32) (x3 : Vec F S256x256 .f32) (y : S400x256.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S200x256.size (by sl_kernel_rfl) y

/-- Its one whole store covers the scratch. -/
theorem coverFirstScratch (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : firstPoint i)
    (x0 : Vec F S200x10000 .f32) (x1 : Vec F S200x10000 .f32) (x2 : Vec F S10000x256 .f32) (x3 : Vec F S256x256 .f32) (y : S10000x256.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S10000x256.size (by sl_kernel_rfl) y

/-- A later point's two half-block stores tile the output block. -/
theorem coverLaterOut (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : ¬firstPoint i)
    (x0 : Vec F S200x10000 .f32) (x1 : Vec F S200x10000 .f32) (x2 : Vec F S10000x256 .f32) (x3 : Vec F S256x256 .f32) (xs : Vec F S10000x256 .bf16) (y : S400x256.Idx) :
    ∃ pc ∈ (runLater c i arg1 harg1 arg2 harg2 arg3 harg3 arg4 harg4 arg5 harg5 arg6 harg6 hc x0 x1 x2 x3 xs).1, y ∈ pc.1.set :=
  View.cover_of_tiledL (runLater c i arg1 harg1 arg2 harg2 arg3 harg3 arg4 harg4 arg5 harg5 arg6 harg6 hc x0 x1 x2 x3 xs).1 S200x256.size (by sl_kernel_rfl) y

/-- What the first point leaves in the output block: its pieces read back. -/
def outFirst (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : firstPoint i)
    (x0 : Vec F S200x10000 .f32) (x1 : Vec F S200x10000 .f32) (x2 : Vec F S10000x256 .f32) (x3 : Vec F S256x256 .f32) : Vec F S400x256 .f32 :=
  VO.read (Elt F) (VO.writes (Elt F) VO.junk (runFirst c i arg1 harg1 arg2 harg2 arg3 harg3 arg4 harg4 arg5 harg5 arg6 harg6 hc x0 x1 x2 x3).1)

/-- What the first point leaves in the scratch: its pieces read back. -/
def supFirst (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : firstPoint i)
    (x0 : Vec F S200x10000 .f32) (x1 : Vec F S200x10000 .f32) (x2 : Vec F S10000x256 .f32) (x3 : Vec F S256x256 .f32) : Vec F S10000x256 .bf16 :=
  VS.read (Elt F) (VS.writes (Elt F) VS.junk (runFirst c i arg1 harg1 arg2 harg2 arg3 harg3 arg4 harg4 arg5 harg5 arg6 harg6 hc x0 x1 x2 x3).2.1)

/-- What a later point leaves in the output block, the scratch holding `xs`: its pieces read back. -/
def outLater (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : ¬firstPoint i)
    (x0 : Vec F S200x10000 .f32) (x1 : Vec F S200x10000 .f32) (x2 : Vec F S10000x256 .f32) (x3 : Vec F S256x256 .f32) (xs : Vec F S10000x256 .bf16) : Vec F S400x256 .f32 :=
  VO.read (Elt F) (VO.writes (Elt F) VO.junk (runLater c i arg1 harg1 arg2 harg2 arg3 harg3 arg4 harg4 arg5 harg5 arg6 harg6 hc x0 x1 x2 x3 xs).1)

/-! ## What the scratch and the output block hold, point by point -/

/-- The first grid point. -/
def t0 : Fin cfg0.N := ⟨0, by rw [show cfg0.N = 25 from N_0]; omega⟩

theorem first_t0 : firstPoint (grid0.coords t0) := (firstPoint_iff t0).mpr rfl

/-- The array the scratch holds from the first point on: what the first point's store leaves, from the feature and
    weight blocks it loads. -/
def support (c : Dev nD) : Vec F S10000x256 .bf16 :=
  supFirst c (grid0.coords t0) (ms0 t0) (hs0 t0) (ms1 t0) (hs1 t0) (ms2 t0) (hs2 t0) (ms3 t0) (hs3 t0) (ms4 t0) (hs4 t0) scM (Memref.isWhole_whole _) first_t0 (iblk m c 0 t0) (iblk m c 1 t0) (iblk m c 2 t0) (iblk m c 3 t0)

/-- What the output block holds after the body at point `t`. -/
def outAt (c : Dev nD) (t : Fin cfg0.N) : Vec F S400x256 .f32 :=
  if h : t.val = 0 then
    outFirst c (grid0.coords t) (ms0 t) (hs0 t) (ms1 t) (hs1 t) (ms2 t) (hs2 t) (ms3 t) (hs3 t) (ms4 t) (hs4 t) scM (Memref.isWhole_whole _) ((firstPoint_iff t).mpr h) (iblk m c 0 t) (iblk m c 1 t) (iblk m c 2 t) (iblk m c 3 t)
  else
    outLater c (grid0.coords t) (ms0 t) (hs0 t) (ms1 t) (hs1 t) (ms2 t) (hs2 t) (ms3 t) (hs3 t) (ms4 t) (hs4 t) scM (Memref.isWhole_whole _) (fun hc => h ((firstPoint_iff t).mp hc)) (iblk m c 0 t) (iblk m c 1 t) (iblk m c 2 t) (iblk m c 3 t) (support m c)

theorem outAt_first (c : Dev nD) (t : Fin cfg0.N) (h : t.val = 0) :
    outAt m c t = outFirst c (grid0.coords t) (ms0 t) (hs0 t) (ms1 t) (hs1 t) (ms2 t) (hs2 t) (ms3 t) (hs3 t) (ms4 t) (hs4 t) scM (Memref.isWhole_whole _) ((firstPoint_iff t).mpr h) (iblk m c 0 t) (iblk m c 1 t) (iblk m c 2 t) (iblk m c 3 t) := dif_pos h

theorem outAt_later (c : Dev nD) (t : Fin cfg0.N) (h : ¬t.val = 0) :
    outAt m c t = outLater c (grid0.coords t) (ms0 t) (hs0 t) (ms1 t) (hs1 t) (ms2 t) (hs2 t) (ms3 t) (hs3 t) (ms4 t) (hs4 t) scM (Memref.isWhole_whole _) (fun hc => h ((firstPoint_iff t).mp hc)) (iblk m c 0 t) (iblk m c 1 t) (iblk m c 2 t) (iblk m c 3 t) (support m c) := dif_neg h

/-- The region's invariant before position `n`: before the first point what the launch hands over (the scratch at
    anything), afterwards the scratch at `support`; the generator register at some state throughout. -/
def PhiS (c : Dev nD) : ℕ → sProp 𝕄
  | 0 => Pipeline.ΦA spec0 c
  | _ + 1 => iprop(iprop(owns (c : Thread nD τ) scM fullShare (support m c)) ∗ (∃ r, prngReg c r))

theorem PhiS_succ (c : Dev nD) (n : ℕ) :
    PhiS m c (n + 1) = iprop(iprop(owns (c : Thread nD τ) scM fullShare (support m c)) ∗ (∃ r, prngReg c r)) := rfl

theorem PhiS_pos (c : Dev nD) (n : ℕ) (hz : n ≠ 0) :
    PhiS m c n = iprop(iprop(owns (c : Thread nD τ) scM fullShare (support m c)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outAt`; the invariant `PhiS`; nothing owed; the adjacency
    array held by its two windows at the two halves of the full share, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at the first point: the launch's invariant hands it the scratch at anything; the run leaves the scratch at
    `support` and the output block at `outAt`. -/
theorem sound_first (c : Dev nD) :
    bodyPre m c t0 ⊢ wp frame (wpE (defs₀ (F := F)) Variants.none c none) Set.univ (bodyAt0 t0) (fun _ => bodyPost m c t0) := by
  generalize ht : (t0 : Fin cfg0.N) = t
  have h0 : t.val = 0 := by rw [← ht]; rfl
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0 t) fullShare ((dats m 0 c).after 0 t) from by
    unfold Dat.leavesExact; rw [live0 0 t], after0]
  rw [show (dats m 0 c).leavesExact 1 t = owns (c : Thread nD τ) (ms1 t) fullShare ((dats m 0 c).after 1 t) from by
    unfold Dat.leavesExact; rw [live0 1 t], after1]
  rw [show (dats m 0 c).leavesExact 2 t = owns (c : Thread nD τ) (ms2 t) fullShare ((dats m 0 c).after 2 t) from by
    unfold Dat.leavesExact; rw [live0 2 t], after2]
  rw [show (dats m 0 c).leavesExact 3 t = owns (c : Thread nD τ) (ms3 t) fullShare ((dats m 0 c).after 3 t) from by
    unfold Dat.leavesExact; rw [live0 3 t], after3]
  rw [show (dats m 0 c).leavesExact 4 t = owns (c : Thread nD τ) (ms4 t) fullShare ((dats m 0 c).after 4 t) from by
    unfold Dat.leavesExact; rw [live0 4 t], after4]
  rw [outAt_first m c t h0, Phi_castSucc m c t, (show PhiS m c t.val = Pipeline.ΦA spec0 c from by rw [h0]; rfl), PhiA_eq]
  unfold outFirst support supFirst; (try dsimp only)
  subst ht
  iintro ⟨⟨HS, Hg⟩, Ho, ⟨%d0, H0⟩, ⟨%d1, H1⟩, ⟨%d2, H2⟩, ⟨%d3, H3⟩, ⟨%d4, H4⟩⟩
  iapply ((runFirst c (grid0.coords t0) _ _ _ _ _ _ _ _ _ _ _ _ first_t0 (iblk m c 0 t0) (iblk m c 1 t0) (iblk m c 2 t0) (iblk m c 3 t0)).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS Hg]
  · isplitl [HS]
    · unfold owns; iexists _; isplitr
      swap; · iexact HS
      ipureintro; exact View.read_writes_of_cover _ _ _ _ _ (coverFirstScratch c _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverFirstOut c _ _ _ _ _ _ _ _ _ _ _ _ _ _ _ _ _ _)

set_option maxHeartbeats 4800000 in
/-- The body at a later point: the invariant hands it the scratch at `support` and takes it back unchanged; the run
    leaves the output block at `outAt`. -/
theorem sound_later (c : Dev nD) (t : Fin cfg0.N) (h0 : ¬t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0 t) fullShare ((dats m 0 c).after 0 t) from by
    unfold Dat.leavesExact; rw [live0 0 t], after0]
  rw [show (dats m 0 c).leavesExact 1 t = owns (c : Thread nD τ) (ms1 t) fullShare ((dats m 0 c).after 1 t) from by
    unfold Dat.leavesExact; rw [live0 1 t], after1]
  rw [show (dats m 0 c).leavesExact 2 t = owns (c : Thread nD τ) (ms2 t) fullShare ((dats m 0 c).after 2 t) from by
    unfold Dat.leavesExact; rw [live0 2 t], after2]
  rw [show (dats m 0 c).leavesExact 3 t = owns (c : Thread nD τ) (ms3 t) fullShare ((dats m 0 c).after 3 t) from by
    unfold Dat.leavesExact; rw [live0 3 t], after3]
  rw [show (dats m 0 c).leavesExact 4 t = owns (c : Thread nD τ) (ms4 t) fullShare ((dats m 0 c).after 4 t) from by
    unfold Dat.leavesExact; rw [live0 4 t], after4]
  rw [outAt_later m c t h0, Phi_castSucc m c t, PhiS_pos m c _ h0]
  unfold outLater; (try dsimp only)
  iintro ⟨⟨HS, Hg⟩, Ho, ⟨%d0, H0⟩, ⟨%d1, H1⟩, ⟨%d2, H2⟩, ⟨%d3, H3⟩, ⟨%d4, H4⟩⟩
  iapply ((runLater c (grid0.coords t) _ _ _ _ _ _ _ _ _ _ _ _ (fun hc => h0 ((firstPoint_iff t).mp hc)) (iblk m c 0 t) (iblk m c 1 t) (iblk m c 2 t) (iblk m c 3 t) (support m c)).2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverLaterOut c _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = t0 := Fin.ext h0
    exact sound_first m c
  · exact sound_later m c t h0

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives it back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 25 := N_0; omega), PhiA_eq]
  iintro ⟨HS, Hg⟩
  isplitl [HS]
  · iexists _; iexact HS
  iexact Hg

end Cert.KernelIdeal.Region

end
-- ==== Proof.IdealRun.lean ====
/-
  The run of @main of the fused graph-convolution kernel, and its frame.

  The adjacency array is read through two windows. The launch hands the region each distinct buffer once, whole at the
  full share; the adjacency buffer is dealt to its two windows at the left and the right half of the full share, and the
  two halves join into the whole buffer again at the region's exit. Nothing follows the region in @main, so the
  program's final memory is the region's: every argument array as it was, the result array at what the library computes
  from the proof data.
-/
import proofs.«169278_g76141180224082_cont_9to1_m_266_16_alg».proof.Proof.IdealFrame

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs arrRef restRefs)
open Cert.Lib.SharedArrays (SharedPost θ_run_frame_around_shared)

/-! ## The windows' arrays and the distinct buffers behind them, one by one -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The pipeline's arrays, window by window: the adjacency buffer twice, at the two halves of the full share. -/
theorem arrays_chain (c : Dev nD) (Fn : (w : Fin cfg0.W) → Buf (Elt F) ((cfg0.win w).arr.view.loc (c.tc : Thread nD τ))) :
    ((dats m 0 c).arrays Fn : sProp 𝕄)
      = iprop((((c.tc : Thread nD τ).loc main_arg1) ↦{fullShare.left} Fn 0) ∗ (((c.tc : Thread nD τ).loc main_arg1) ↦{fullShare.right} Fn 1)
          ∗ (((c.tc : Thread nD τ).loc main_arg0) ↦{fullShare} Fn 2) ∗ (((c.tc : Thread nD τ).loc main_arg2) ↦{fullShare} Fn 3)
          ∗ (((c.tc : Thread nD τ).loc main_v0) ↦{fullShare} Fn 4)) := by
  unfold Dat.arrays
  rw [bigSep_W0, share0, share1, share2, share3, share4,
    (arr_whole0 0).set_eq_univ, (arr_whole0 2).set_eq_univ, (arr_whole0 3).set_eq_univ, (arr_whole0 4).set_eq_univ]

/-- The distinct buffers behind the arrays: four, the adjacency buffer once. -/
theorem arrBufs_chain (c : Dev nD) (Vb : (b : Ref sig .tc) → Buf (Elt F) ((c.tc : Thread nD τ).loc b)) :
    (arrBufs spec0 c Vb : sProp 𝕄)
      = iprop((((c.tc : Thread nD τ).loc main_arg1) ↦{fullShare} Vb main_arg1) ∗ (((c.tc : Thread nD τ).loc main_arg0) ↦{fullShare} Vb main_arg0)
          ∗ (((c.tc : Thread nD τ).loc main_arg2) ↦{fullShare} Vb main_arg2) ∗ (((c.tc : Thread nD τ).loc main_v0) ↦{fullShare} Vb main_v0)) := by
  unfold arrBufs
  rw [show Finset.univ.image (arrRef spec0) = {main_arg1, main_arg0, main_arg2, main_v0} from by decide,
    BI.bigSep_insert (by decide), BI.bigSep_insert (by decide), BI.bigSep_insert (by decide), BI.bigSep_singleton]
  rfl

/-! ## The contents at the region's exit -/

open Classical in
/-- Core `c`'s buffer contents when the region is left: the result array at what the write-backs made it, every other
    buffer as the region found it. -/
def VN (c : Dev nD) : Valuation τ sig (Elt F) :=
  Function.update (V0 m c) (Proc.devRef .tc main_v0) ((dats m 0 c).arrAt 4 cfg0.N)

theorem VN_out (c : Dev nD) : VN m c (Proc.devRef .tc main_v0) = (dats m 0 c).arrAt 4 cfg0.N := by
  unfold VN; exact Function.update_self _ _ _

theorem VN_of_ne (c : Dev nD) (b : Ref sig .tc) (hb : b ≠ main_v0) : VN m c (Proc.devRef .tc b) = V m c b := by
  unfold VN
  exact Function.update_of_ne (fun e => hb (Proc.devRef_injective _ e)) _ _

/-- An input's array is never written: at the exit it is what the region found. -/
theorem arrAt_in0 (c : Dev nD) (n : ℕ) : (dats m 0 c).arrAt 0 n = V m c main_arg1 := ((dats m 0 c).arrAt_in 0 rfl n).trans (A_eq m c 0)
theorem arrAt_in1 (c : Dev nD) (n : ℕ) : (dats m 0 c).arrAt 1 n = V m c main_arg1 := ((dats m 0 c).arrAt_in 1 rfl n).trans (A_eq m c 1)
theorem arrAt_in2 (c : Dev nD) (n : ℕ) : (dats m 0 c).arrAt 2 n = V m c main_arg0 := ((dats m 0 c).arrAt_in 2 rfl n).trans (A_eq m c 2)
theorem arrAt_in3 (c : Dev nD) (n : ℕ) : (dats m 0 c).arrAt 3 n = V m c main_arg2 := ((dats m 0 c).arrAt_in 3 rfl n).trans (A_eq m c 3)

/-- DEALING at the entry: the adjacency buffer's full share is split between its two windows. -/
theorem deal_entry (c : Dev nD) :
    (arrBufs spec0 c (fun b => V0 m c (Proc.devRef .tc b)) : sProp 𝕄) ⊢ (dats m 0 c).arrays ((dats m 0 c).arrAt · 0) := by
  rw [arrBufs_chain, arrays_chain, arrAt_in0, arrAt_in1, arrAt_in2, arrAt_in3]
  iintro ⟨Ha, Hx, Hw, Ho⟩
  ihave Hlr := (pointsTo_share (PosShare.mem_left_op_right fullShare)).1 $$ Ha
  icases Hlr with ⟨Hl, Hr⟩
  isplitl [Hl]; · iexact Hl
  isplitl [Hr]; · iexact Hr
  isplitl [Hx]; · iexact Hx
  isplitl [Hw]; · iexact Hw
  iexact Ho

/-- JOINING at the exit: the two halves of the adjacency buffer are the whole buffer again. -/
theorem join_exit (c : Dev nD) :
    (dats m 0 c).arrays ((dats m 0 c).arrAt · cfg0.N) ⊢ (arrBufs spec0 c (fun b => VN m c (Proc.devRef .tc b)) : sProp 𝕄) := by
  rw [arrBufs_chain, arrays_chain, arrAt_in0, arrAt_in1, arrAt_in2, arrAt_in3,
    VN_of_ne m c main_arg1 (by decide), VN_of_ne m c main_arg0 (by decide), VN_of_ne m c main_arg2 (by decide), VN_out]
  iintro ⟨Hl, Hr, Hx, Hw, Ho⟩
  isplitl [Hl Hr]
  · iapply (pointsTo_share (PosShare.mem_left_op_right fullShare)).2
    isplitl [Hl]; · iexact Hl
    iexact Hr
  isplitl [Hx]; · iexact Hx
  isplitl [Hw]; · iexact Hw
  iexact Ho

/-- and DEALING them again from it. -/
theorem deal_exit (c : Dev nD) :
    (arrBufs spec0 c (fun b => VN m c (Proc.devRef .tc b)) : sProp 𝕄) ⊢ (dats m 0 c).arrays ((dats m 0 c).arrAt · cfg0.N) := by
  rw [arrBufs_chain, arrays_chain, arrAt_in0, arrAt_in1, arrAt_in2, arrAt_in3,
    VN_of_ne m c main_arg1 (by decide), VN_of_ne m c main_arg0 (by decide), VN_of_ne m c main_arg2 (by decide), VN_out]
  iintro ⟨Ha, Hx, Hw, Ho⟩
  ihave Hlr := (pointsTo_share (PosShare.mem_left_op_right fullShare)).1 $$ Ha
  icases Hlr with ⟨Hl, Hr⟩
  isplitl [Hl]; · iexact Hl
  isplitl [Hr]; · iexact Hr
  isplitl [Hx]; · iexact Hx
  isplitl [Hw]; · iexact Hw
  iexact Ho

/-- Off the arrays the exit contents are the entry contents. -/
theorem VN_rest (c : Dev nD) : ∀ b ∈ restRefs sig spec0, VN m c (Proc.devRef .tc b) = V0 m c (Proc.devRef .tc b) := fun b hb =>
  VN_of_ne m c b fun e => (Finset.mem_sdiff.mp hb).2 (Finset.mem_image.mpr ⟨4, Finset.mem_univ _, e.symm⟩)

/-! ## The run and the frame -/

set_option backward.isDefEq.respectTransparency.types false in
/-- From any memory with zero counters every weakly fair execution of @main terminates, and every final state has every
    array of the pipeline at what the library computes from the proof data. -/
theorem run_main : θ_run defs (onTc (τ := τ) (main (F := F))) (s₀ m ρ) (SharedPost cfgs (dats m) 0 (VN m) []) :=
  θ_run_frame_around_shared cfgs (dats m) (0 : Fin 1) defs₀ Variants.none
    (hinj := cellOf_inj) (hw := winFacts₀0) (hne := block_pos0) (harr := arr_whole0) (hstage := stage_whole0)
    (m := m) (g := ρ) (main := main)
    (hbody := fun c => (body_obligation m c).loose) (howed := fun _ _ => rfl)
    (V₀ := V0 m) (VN := VN m) (opss := [])
    (hsub := fun _ h => absurd h List.not_mem_nil) (hfresh := fun _ h => absurd h List.not_mem_nil)
    (hkeep := fun _ h => absurd h List.not_mem_nil)
    (hmain := hmain m Variants.none) (hVN := VN_rest m)
    (hdeal0 := deal_entry m) (hjoinN := join_exit m) (hdealN := deal_exit m) (hin := hin m) (hout := hout m)

/-- The run with the result array named and the argument arrays unchanged. -/
theorem run_named : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 4,
      ((h c).1 2).trans ((arrAt_in2 m c _).trans (V_main_arg0 m c)),
      ((h c).1 0).trans ((arrAt_in0 m c _).trans (V_main_arg1 m c)),
      ((h c).1 3).trans ((arrAt_in3 m c _).trans (V_main_arg2 m c))⟩) (run_main m ρ)

/-- THE FRAME: @main runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Region

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.Spec.lean ====
/-
  The graph convolution as one function of the three argument arrays.

  For features x [10000, 256], an adjacency matrix adj [10000, 10000] and weights w [256, 256], entry (r, q) of
  adj · (x · w) is  ∑ k, adj[r, k] · (∑ j, x[k, j] · w[j, q]),  a sum of products over the extended reals in which
  the inner product x · w is formed first. Both programs compute exactly this nested sum, so no law beyond the
  meaning of a matrix product is needed to join them, and finiteness of the inputs is never used.
-/
import Idealize.ShloMosaic.PureOps.Ideal
import Idealize.ShloMosaic.Lib.ValueIdx

noncomputable section

namespace Cert.Spec

open Idealize.ShloMosaic Idealize.ShloMosaic.ValueIdx

/-- Entry (k, q) of the product of features and weights: ∑ j, x[k, j] · w[j, q]. -/
def support (x : (⟨2, ![10000, 256]⟩ : Shape).Idx → EReal) (w : (⟨2, ![256, 256]⟩ : Shape).Idx → EReal) :
    (⟨2, ![10000, 256]⟩ : Shape).Idx → EReal :=
  fun i => ∑ j : Fin 256, x (ix2 (i 0 : Fin 10000) j) * w (ix2 j (i 1 : Fin 256))

/-- Entry (r, q) of the graph convolution: ∑ k, adj[r, k] · support[k, q]. -/
def graphConv (x : (⟨2, ![10000, 256]⟩ : Shape).Idx → EReal) (adj : (⟨2, ![10000, 10000]⟩ : Shape).Idx → EReal)
    (w : (⟨2, ![256, 256]⟩ : Shape).Idx → EReal) : (⟨2, ![10000, 256]⟩ : Shape).Idx → EReal :=
  fun i => ∑ k : Fin 10000, adj (ix2 (i 0 : Fin 10000) k) * support x w (ix2 k (i 1 : Fin 256))

end Cert.Spec

end
-- ==== Proof.IdealPieces.lean ====
/-
  What the body's stores hold, over the extended reals.

  A change of float format is the identity there and a matrix product into a zero accumulator is the plain sum of
  products. So the array stored into the scratch is the product of features and weights, a half-block store's entry
  (p, q) is row p of its adjacency block times column q of the scratch, and the two half-block stores together leave
  the block whose rows [0, 200) are the first product and whose rows [200, 400) are the second.
-/
import proofs.«169278_g76141180224082_cont_9to1_m_266_16_alg».proof.Proof.IdealRun
import proofs.«169278_g76141180224082_cont_9to1_m_266_16_alg».proof.Proof.LibRowLayers
import proofs.«169278_g76141180224082_cont_9to1_m_266_16_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Result

open Cert.KernelIdeal Cert.KernelIdeal.Gen Cert.KernelIdeal.Region
open Idealize.ShloMosaic Idealize.ShloMosaic.TcCoe Idealize.ShloMosaic.ValueIdx Idealize.ShloMosaic.Tactic
open Idealize.SL.Sem
open Idealize.ShloMosaic.Pipeline (Dat)
open Cert.RowLayers (RowsTimesCols)

/-! ## The body's two matrix products are rows times columns -/

theorem rtc_support : RowsTimesCols dot_S10000x256_S256x256_S10000x256_1_0_0_1_n_n where
  rank := rfl
  size := rfl
  lhs0 := fun j q => by
    unfold DotDims.lhsIdx
    rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
    rfl
  lhs1 := fun j q => dot_S10000x256_S256x256_S10000x256_1_0_0_1_n_n.lhsIdx_val_of_single rfl j q
  rhs0 := fun j q => dot_S10000x256_S256x256_S10000x256_1_0_0_1_n_n.rhsIdx_val_of_single rfl j q
  rhs1 := fun j q => by
    unfold DotDims.rhsIdx
    rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
    rfl

theorem rtc_block : RowsTimesCols dot_S200x10000_S10000x256_S200x256_1_0_0_1_n_n where
  rank := rfl
  size := rfl
  lhs0 := fun j q => by
    unfold DotDims.lhsIdx
    rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
    rfl
  lhs1 := fun j q => dot_S200x10000_S10000x256_S200x256_1_0_0_1_n_n.lhsIdx_val_of_single rfl j q
  rhs0 := fun j q => dot_S200x10000_S10000x256_S200x256_1_0_0_1_n_n.rhsIdx_val_of_single rfl j q
  rhs1 := fun j q => by
    unfold DotDims.rhsIdx
    rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
    rfl

/-! ## The payloads at an entry -/

/-- The array stored into the scratch is the product of features and weights. -/
theorem pay1_eq (x2 : Vec Ideal S10000x256 .f32) (x3 : Vec Ideal S256x256 .f32) :
    k0_pay1 (F := Ideal) x2 x3 = Cert.Spec.support x2 x3 := by
  funext i
  obtain ⟨p, q, rfl⟩ : ∃ (p : Fin 10000) (q : Fin 256), i = ix2 p q := ⟨i 0, i 1, eq_ix2 i⟩
  unfold k0_pay1
  refine (congrFun (shapeCast_self _ _) (ix2 p q)).trans ?_
  exact congrFun (Cert.RowLayers.rowOf_matmul_zero (φ₁ := .bf16) (φ₂ := .bf16) rtc_support none x2 x3 p) q

/-- A half-block store's entry (p, q): the adjacency block's row p times column q of the scratch. -/
theorem pay2_apply (x0 : Vec Ideal S200x10000 .f32) (s : Vec Ideal S10000x256 .bf16) (p : Fin 200) (q : Fin 256) :
    k0_pay2 (F := Ideal) x0 s (ix2 p q) = ∑ k : Fin 10000, x0 (ix2 p k) * s (ix2 k q) :=
  congrFun (Cert.RowLayers.rowOf_matmul_zero (φ₁ := .bf16) (φ₂ := .bf16) rtc_block none x0 s p) q

theorem pay3_apply (x1 : Vec Ideal S200x10000 .f32) (s : Vec Ideal S10000x256 .bf16) (p : Fin 200) (q : Fin 256) :
    k0_pay3 (F := Ideal) x1 s (ix2 p q) = ∑ k : Fin 10000, x1 (ix2 p k) * s (ix2 k q) :=
  congrFun (Cert.RowLayers.rowOf_matmul_zero (φ₁ := .bf16) (φ₂ := .bf16) rtc_block none x1 s p) q

/-! ## A block from its two half-block stores -/

/-- The [400, 256] block whose rows [0, 200) are `w0` and whose rows [200, 400) are `w1`. -/
def stack (w0 w1 : S200x256.Idx → Elt Ideal .f32) : S400x256.Idx → Elt Ideal .f32 := fun y =>
  if h : (y 0).val < 200 then w0 (ix2 (⟨(y 0).val, h⟩ : Fin 200) (y 1 : Fin 256))
  else w1 (ix2 (⟨(y 0).val - 200, by have : (y 0).val < 400 := (y 0).isLt; omega⟩ : Fin 200) (y 1 : Fin 256))

theorem hz : (![0, 0] : Fin 2 → Nat) = fun _ => 0 := funext fun a => by fin_cases a <;> rfl

set_option maxHeartbeats 1000000 in
/-- Two stores, of `w1` into rows [200, 400) and of `w0` into rows [0, 200), leave `stack w0 w1`. -/
theorem canon_two (w0 w1 : S200x256.Idx → Elt Ideal .f32)
    (h1 : ∀ a, (![200, 0] : Fin 2 → Nat) a + (![200, 256] : Fin 2 → Nat) a ≤ S400x256.size a)
    (h0 : ∀ a, (![0, 0] : Fin 2 → Nat) a + (![200, 256] : Fin 2 → Nat) a ≤ S400x256.size a) :
    View.canon (Val := Elt Ideal) [(⟨Rect.unit (s := S400x256) ![200, 0] ![200, 256] h1, w1⟩ : View.Piece (Elt Ideal) S400x256 .f32),
      (⟨Rect.unit (s := S400x256) ![0, 0] ![200, 256] h0, w0⟩ : View.Piece (Elt Ideal) S400x256 .f32)]
      = stack w0 w1 := by
  funext y
  have hlt : (y 0).val < 400 := (y 0).isLt
  by_cases h : (y 0).val < 200
  · have hnot : y ∉ (Rect.unit (s := S400x256) ![200, 0] ![200, 256] h1).set := by
      intro hm
      have := ((Rect.mem_set_unit.mp hm) 0).1
      have e : ((![200, 0] : Fin 2 → Nat) 0) = 200 := rfl
      omega
    have hy : y = (Rect.unit (s := S400x256) ![0, 0] ![200, 256] h0).emb (ix2 (⟨(y 0).val, h⟩ : Fin 200) (y 1 : Fin 256)) := by
      funext a; apply Fin.ext
      match a with
      | ⟨0, _⟩ => show (y 0).val = 0 + 1 * (y 0).val; omega
      | ⟨1, _⟩ => show (y 1).val = 0 + 1 * (y 1).val; omega
    refine (View.canon_cons_of_not_mem (⟨Rect.unit (s := S400x256) ![200, 0] ![200, 256] h1, w1⟩ : View.Piece (Elt Ideal) S400x256 .f32)
      [(⟨Rect.unit (s := S400x256) ![0, 0] ![200, 256] h0, w0⟩ : View.Piece (Elt Ideal) S400x256 .f32)] hnot).trans ?_
    refine (congrArg (View.canon (Val := Elt Ideal) [(⟨Rect.unit (s := S400x256) ![0, 0] ![200, 256] h0, w0⟩ : View.Piece (Elt Ideal) S400x256 .f32)]) hy).trans ?_
    refine (View.canon_cons_emb (Rect.unit (s := S400x256) ![0, 0] ![200, 256] h0) w0 [] _).trans ?_
    unfold stack
    rw [dif_pos h]
  · have hy : y = (Rect.unit (s := S400x256) ![200, 0] ![200, 256] h1).emb (ix2 (⟨(y 0).val - 200, by omega⟩ : Fin 200) (y 1 : Fin 256)) := by
      funext a; apply Fin.ext
      match a with
      | ⟨0, _⟩ => show (y 0).val = 200 + 1 * ((y 0).val - 200); omega
      | ⟨1, _⟩ => show (y 1).val = 0 + 1 * (y 1).val; omega
    refine (congrArg (View.canon (Val := Elt Ideal) [(⟨Rect.unit (s := S400x256) ![200, 0] ![200, 256] h1, w1⟩ : View.Piece (Elt Ideal) S400x256 .f32),
      (⟨Rect.unit (s := S400x256) ![0, 0] ![200, 256] h0, w0⟩ : View.Piece (Elt Ideal) S400x256 .f32)]) hy).trans ?_
    refine (View.canon_cons_emb (Rect.unit (s := S400x256) ![200, 0] ![200, 256] h1) w1
      [(⟨Rect.unit (s := S400x256) ![0, 0] ![200, 256] h0, w0⟩ : View.Piece (Elt Ideal) S400x256 .f32)] _).trans ?_
    unfold stack
    rw [dif_neg h]

/-- The output block whose rows [0, 200) are `x0 · s` and whose rows [200, 400) are `x1 · s`. -/
def halves (x0 x1 : Vec Ideal S200x10000 .f32) (s : Vec Ideal S10000x256 .bf16) : S400x256.Idx → Elt Ideal .f32 :=
  stack (k0_pay2 (F := Ideal) x0 s) (k0_pay3 (F := Ideal) x1 s)

/-! ## What the runs found, named -/

set_option maxHeartbeats 1000000 in
/-- The first point leaves the product of features and weights in the scratch. -/
theorem supFirst_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : firstPoint i)
    (x0 : Vec Ideal S200x10000 .f32) (x1 : Vec Ideal S200x10000 .f32) (x2 : Vec Ideal S10000x256 .f32) (x3 : Vec Ideal S256x256 .f32) :
    supFirst (F := Ideal) c i arg1 harg1 arg2 harg2 arg3 harg3 arg4 harg4 arg5 harg5 arg6 harg6 hc x0 x1 x2 x3 = k0_pay1 (F := Ideal) x2 x3 := by
  unfold supFirst
  rw [View.read_writes_eq_canon _ _ _ (coverFirstScratch c i arg1 harg1 arg2 harg2 arg3 harg3 arg4 harg4 arg5 harg5 arg6 harg6 hc x0 x1 x2 x3)]
  unfold runFirst
  dsimp only
  sl_unfold_words
  rw [View.canon_unit_zero hz]
  simp only [View.readAt_eq_ld, harg3.read_unread, harg4.read_unread, View.ld_unit_zero (S := S10000x256) hz, View.ld_unit_zero (S := S256x256) hz]

set_option maxHeartbeats 1000000 in
/-- and the two halves, over that product, in the output block. -/
theorem outFirst_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : firstPoint i)
    (x0 : Vec Ideal S200x10000 .f32) (x1 : Vec Ideal S200x10000 .f32) (x2 : Vec Ideal S10000x256 .f32) (x3 : Vec Ideal S256x256 .f32) :
    outFirst (F := Ideal) c i arg1 harg1 arg2 harg2 arg3 harg3 arg4 harg4 arg5 harg5 arg6 harg6 hc x0 x1 x2 x3 = halves x0 x1 (k0_pay1 (F := Ideal) x2 x3) := by
  unfold outFirst
  rw [View.read_writes_eq_canon _ _ _ (coverFirstOut c i arg1 harg1 arg2 harg2 arg3 harg3 arg4 harg4 arg5 harg5 arg6 harg6 hc x0 x1 x2 x3)]
  unfold runFirst
  dsimp only
  sl_unfold_words
  simp only [View.readCov_unit_zero (S := S10000x256) _ hz, View.readAt_eq_ld, harg1.read_unread, harg2.read_unread, harg3.read_unread, harg4.read_unread,
    View.ld_unit_zero (S := S200x10000) hz, View.ld_unit_zero (S := S10000x256) hz, View.ld_unit_zero (S := S256x256) hz]
  exact canon_two _ _ _ _

set_option maxHeartbeats 1000000 in
/-- A later point leaves the two halves over what the scratch holds. -/
theorem outLater_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S400x256 .f32) (harg5 : arg5.IsWhole) (arg6 : Memref sig .tc .vmem S10000x256 .bf16) (harg6 : arg6.IsWhole) (hc : ¬firstPoint i)
    (x0 : Vec Ideal S200x10000 .f32) (x1 : Vec Ideal S200x10000 .f32) (x2 : Vec Ideal S10000x256 .f32) (x3 : Vec Ideal S256x256 .f32) (xs : Vec Ideal S10000x256 .bf16) :
    outLater (F := Ideal) c i arg1 harg1 arg2 harg2 arg3 harg3 arg4 harg4 arg5 harg5 arg6 harg6 hc x0 x1 x2 x3 xs = halves x0 x1 xs := by
  unfold outLater
  rw [View.read_writes_eq_canon _ _ _ (coverLaterOut c i arg1 harg1 arg2 harg2 arg3 harg3 arg4 harg4 arg5 harg5 arg6 harg6 hc x0 x1 x2 x3 xs)]
  unfold runLater
  dsimp only
  sl_unfold_words
  simp only [View.readAt_eq_ld, harg1.read_unread, harg2.read_unread, harg6.read_unread,
    View.ld_unit_zero (S := S200x10000) hz, View.ld_unit_zero (S := S10000x256) hz]
  exact canon_two _ _ _ _

end Cert.KernelIdeal.Result

end
-- ==== Proof.IdealResult.lean ====
/-
  The result array after the run of the idealized kernel is the graph convolution of the argument arrays.

  At grid point t the feature and weight windows are the whole arrays, the two adjacency windows are rows
  [400t, 400t+200) and [400t+200, 400t+400) of the adjacency matrix, and the output window is rows [400t, 400t+400) of
  the result. The scratch holds the product of features and weights, so what point t writes back is block t of the
  graph convolution; the 25 blocks tile the result array.
-/
import proofs.«169278_g76141180224082_cont_9to1_m_266_16_alg».proof.Proof.IdealPieces

set_option maxRecDepth 16384

noncomputable section

namespace Cert.KernelIdeal.Result

open Cert.KernelIdeal Cert.KernelIdeal.Gen Cert.KernelIdeal.Region
open Idealize.ShloMosaic Idealize.ShloMosaic.TcCoe Idealize.ShloMosaic.ValueIdx Idealize.ShloMosaic.Tactic
open Idealize.SL.Sem
open Idealize.ShloMosaic.Pipeline (Dat)
open Cert.RowLayers (RowsTimesCols)

variable (m : (ℓ : Loc nD τ sig) → Buf (Elt Ideal) ℓ) (ρ : Dev nD → PrngReg)

theorem tlt (t : Fin cfg0.N) : t.val < 25 := lt_of_lt_of_eq t.isLt N_0

/-- The printed index maps, decided over the grid: adjacency row blocks 2t and 2t+1, the whole feature and weight
    arrays, output row block t. -/
theorem idx_facts : ∀ t : Fin cfg0.N, win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The windows' blocks at coordinates -/

/-- The feature window's block is the whole feature array, at every point. -/
theorem iblk2_eq (c : Dev nD) (t : Fin cfg0.N) :
    (iblk m c 2 t : S10000x256.Idx → Elt Ideal .f32) = (m ((c.tc : Thread nD τ).loc main_arg0)) := by
  obtain ⟨-, -, -, -, e0, e1, -⟩ := idx_facts t
  funext j
  show V m c main_arg0 (((cfg0.win 2).blk t).view.emb j) = _
  refine congrArg _ (funext fun a => Fin.ext ?_)
  match a with
  | ⟨0, _⟩ => show win0_2.index t (0 : Fin 2) * 10000 + 1 * (j 0).val = (j 0).val; omega
  | ⟨1, _⟩ => show win0_2.index t (1 : Fin 2) * 256 + 1 * (j 1).val = (j 1).val; omega

/-- The weight window's block is the whole weight array. -/
theorem iblk3_eq (c : Dev nD) (t : Fin cfg0.N) :
    (iblk m c 3 t : S256x256.Idx → Elt Ideal .f32) = (m ((c.tc : Thread nD τ).loc main_arg2)) := by
  obtain ⟨-, -, -, -, -, -, e0, e1, -⟩ := idx_facts t
  funext j
  show V m c main_arg2 (((cfg0.win 3).blk t).view.emb j) = _
  refine congrArg _ (funext fun a => Fin.ext ?_)
  match a with
  | ⟨0, _⟩ => show win0_3.index t (0 : Fin 2) * 256 + 1 * (j 0).val = (j 0).val; omega
  | ⟨1, _⟩ => show win0_3.index t (1 : Fin 2) * 256 + 1 * (j 1).val = (j 1).val; omega

/-- Row p of the first adjacency window's block at point t is row 400t + p of the adjacency matrix. -/
theorem iblk0_apply (c : Dev nD) (t : Fin cfg0.N) (p : Fin 200) (k : Fin 10000) (r : Fin 10000) (hr : r.val = 400 * t.val + p.val) :
    (iblk m c 0 t : S200x10000.Idx → Elt Ideal .f32) (ix2 p k) = (m ((c.tc : Thread nD τ).loc main_arg1)) (ix2 r k) := by
  obtain ⟨e0, e1, -⟩ := idx_facts t
  show V m c main_arg1 (((cfg0.win 0).blk t).view.emb (ix2 p k)) = _
  refine congrArg _ (funext fun a => Fin.ext ?_)
  match a with
  | ⟨0, _⟩ => show win0_0.index t (0 : Fin 2) * 200 + 1 * p.val = r.val; omega
  | ⟨1, _⟩ => show win0_0.index t (1 : Fin 2) * 10000 + 1 * k.val = k.val; omega

/-- Row p of the second adjacency window's block at point t is row 400t + 200 + p. -/
theorem iblk1_apply (c : Dev nD) (t : Fin cfg0.N) (p : Fin 200) (k : Fin 10000) (r : Fin 10000) (hr : r.val = 400 * t.val + 200 + p.val) :
    (iblk m c 1 t : S200x10000.Idx → Elt Ideal .f32) (ix2 p k) = (m ((c.tc : Thread nD τ).loc main_arg1)) (ix2 r k) := by
  obtain ⟨-, -, e0, e1, -⟩ := idx_facts t
  show V m c main_arg1 (((cfg0.win 1).blk t).view.emb (ix2 p k)) = _
  refine congrArg _ (funext fun a => Fin.ext ?_)
  match a with
  | ⟨0, _⟩ => show win0_1.index t (0 : Fin 2) * 200 + 1 * p.val = r.val; omega
  | ⟨1, _⟩ => show win0_1.index t (1 : Fin 2) * 10000 + 1 * k.val = k.val; omega

/-! ## The scratch, and the output block at every point -/

/-- The product of features and weights, of the argument arrays. -/
abbrev S (c : Dev nD) : S10000x256.Idx → Elt Ideal .f32 := Cert.Spec.support (m ((c.tc : Thread nD τ).loc main_arg0)) (m ((c.tc : Thread nD τ).loc main_arg2))

/-- The graph convolution of the argument arrays. -/
abbrev G (c : Dev nD) : S10000x256.Idx → Elt Ideal .f32 :=
  Cert.Spec.graphConv (m ((c.tc : Thread nD τ).loc main_arg0)) (m ((c.tc : Thread nD τ).loc main_arg1)) (m ((c.tc : Thread nD τ).loc main_arg2))

/-- From the first point on the scratch holds the product of features and weights. -/
theorem support_eq (c : Dev nD) : support (F := Ideal) m c = S m c :=
  (supFirst_eq c (grid0.coords t0) (ms0 t0) (hs0 t0) (ms1 t0) (hs1 t0) (ms2 t0) (hs2 t0) (ms3 t0) (hs3 t0) (ms4 t0) (hs4 t0) scM (Memref.isWhole_whole _) first_t0 (iblk m c 0 t0) (iblk m c 1 t0) (iblk m c 2 t0) (iblk m c 3 t0)).trans
    ((pay1_eq _ _).trans (congrArg₂ Cert.Spec.support (iblk2_eq m c t0) (iblk3_eq m c t0)))

/-- At every point the output block is the two adjacency blocks times it. -/
theorem outAt_eq (c : Dev nD) (t : Fin cfg0.N) :
    outAt (F := Ideal) m c t = halves (iblk m c 0 t) (iblk m c 1 t) (S m c) := by
  by_cases h : t.val = 0
  · rw [outAt_first m c t h]
    exact (outFirst_eq c (grid0.coords t) (ms0 t) (hs0 t) (ms1 t) (hs1 t) (ms2 t) (hs2 t) (ms3 t) (hs3 t) (ms4 t) (hs4 t) scM (Memref.isWhole_whole _) ((firstPoint_iff t).mpr h) (iblk m c 0 t) (iblk m c 1 t) (iblk m c 2 t) (iblk m c 3 t)).trans
      (congrArg (halves (iblk m c 0 t) (iblk m c 1 t)) ((pay1_eq _ _).trans (congrArg₂ Cert.Spec.support (iblk2_eq m c t) (iblk3_eq m c t))))
  · rw [outAt_later m c t h]
    exact (outLater_eq c (grid0.coords t) (ms0 t) (hs0 t) (ms1 t) (hs1 t) (ms2 t) (hs2 t) (ms3 t) (hs3 t) (ms4 t) (hs4 t) scM (Memref.isWhole_whole _) (fun hc => h ((firstPoint_iff t).mp hc)) (iblk m c 0 t) (iblk m c 1 t) (iblk m c 2 t) (iblk m c 3 t) (support m c)).trans
      (congrArg (halves (iblk m c 0 t) (iblk m c 1 t)) (support_eq m c))

/-! ## What a point writes back, and the whole array -/

set_option maxHeartbeats 1000000 in
/-- WHAT POINT t WRITES BACK is block t of the graph convolution. -/
theorem flushed_eq (c : Dev nD) (t : Fin cfg0.N) :
    (dats (F := Ideal) m 0 c).flushed 4 t = ((cfg0.win 4).blk t).view.read (Elt Ideal) (G m c) := by
  show (cfg0.win 4).cut (grid0.coords t) ((dats m 0 c).after 4 t) = _
  rw [after4, outAt_eq]
  obtain ⟨-, -, -, -, -, -, -, -, e0, e1⟩ := idx_facts t
  have ht := tlt t
  funext y
  have hy0 : (y 0).val < 400 := (y 0).isLt
  have hemb : ((cfg0.win 4).blk t).view.emb y = ix2 (⟨400 * t.val + (y 0).val, by omega⟩ : Fin 10000) (y 1 : Fin 256) := by
    funext a; apply Fin.ext
    match a with
    | ⟨0, _⟩ => show win0_4.index t (0 : Fin 2) * 400 + 1 * (y 0).val = 400 * t.val + (y 0).val; omega
    | ⟨1, _⟩ => show win0_4.index t (1 : Fin 2) * 256 + 1 * (y 1).val = (y 1).val; omega
  show halves (iblk m c 0 t) (iblk m c 1 t) (S m c) y = G m c (((cfg0.win 4).blk t).view.emb y)
  rw [hemb]
  unfold halves stack
  by_cases h : (y 0).val < 200
  · rw [dif_pos h]
    refine (pay2_apply (iblk m c 0 t) (S m c) ⟨(y 0).val, h⟩ (y 1)).trans ?_
    refine Finset.sum_congr rfl fun k _ => ?_
    exact congrArg (· * S m c (ix2 k (y 1 : Fin 256))) (iblk0_apply m c t ⟨(y 0).val, h⟩ k ⟨400 * t.val + (y 0).val, by omega⟩ rfl)
  · rw [dif_neg h]
    refine (pay3_apply (iblk m c 1 t) (S m c) ⟨(y 0).val - 200, by omega⟩ (y 1)).trans ?_
    refine Finset.sum_congr rfl fun k _ => ?_
    exact congrArg (· * S m c (ix2 k (y 1 : Fin 256))) (iblk1_apply m c t ⟨(y 0).val - 200, by omega⟩ k ⟨400 * t.val + (y 0).val, by omega⟩
      (by show 400 * t.val + (y 0).val = 400 * t.val + 200 + ((y 0).val - 200); omega))

/-- An index of the result is in point t's block iff each coordinate is in the block's range on its axis. -/
theorem mem_blk (t : Fin cfg0.N) (i : S10000x256.Idx) :
    i ∈ ((cfg0.win 4).blk t).view.set ↔ ∀ a : Fin 2, win0_4.index t a * S400x256.size a ≤ (i a).val ∧ (i a).val < win0_4.index t a * S400x256.size a + S400x256.size a := by
  show i ∈ ((View.whole main_v0).slice (win0_4.rect t)).set ↔ _
  rw [View.set_slice_whole, Rect.mem_set_unit]
  exact Iff.rfl

/-- THE COVER: row r of the result lies in the block of point r / 400. -/
theorem cover (i : S10000x256.Idx) : ∃ t : Fin cfg0.N, (cfg0.win 4).flush t = true ∧ i ∈ ((cfg0.win 4).blk t).view.set := by
  have hi0 : (i 0).val < 10000 := (i 0).isLt
  have hi1 : (i 1).val < 256 := (i 1).isLt
  have hN : (i 0).val / 400 < cfg0.N := by rw [show cfg0.N = 25 from N_0]; omega
  obtain ⟨-, -, -, -, -, -, -, -, e0, e1⟩ := idx_facts ⟨(i 0).val / 400, hN⟩
  have e0' : win0_4.index ⟨(i 0).val / 400, hN⟩ (0 : Fin 2) = (i 0).val / 400 := e0
  refine ⟨⟨(i 0).val / 400, hN⟩, flush0_4 _, ?_⟩
  rw [mem_blk]
  intro a
  match a with
  | ⟨0, _⟩ => show win0_4.index ⟨(i 0).val / 400, hN⟩ (0 : Fin 2) * 400 ≤ (i 0).val ∧ (i 0).val < win0_4.index ⟨(i 0).val / 400, hN⟩ (0 : Fin 2) * 400 + 400; omega
  | ⟨1, _⟩ => show win0_4.index ⟨(i 0).val / 400, hN⟩ (1 : Fin 2) * 256 ≤ (i 1).val ∧ (i 1).val < win0_4.index ⟨(i 0).val / 400, hN⟩ (1 : Fin 2) * 256 + 256; omega

/-- THE ARRAY after the run: the graph convolution of the argument arrays. -/
theorem final (c : Dev nD) : (dats (F := Ideal) m 0 c).arrAt 4 cfg0.N = G m c :=
  (dats m 0 c).arrAt_eq_of_cover 4 (G m c) (fun t _ => flushed_eq m c t) cover

/-- The run: the result array ends at the graph convolution, the argument arrays unchanged. -/
theorem run : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (run_named m ρ)

end Cert.KernelIdeal.Result

end
-- ==== Proof.RefIsSpec.lean ====
/-
  The reference computes the graph convolution: its two host products, read at an index one after the other, are the
  nested sum of the specification — the outer product over the 10000 columns of the adjacency row, the inner one over
  the 256 feature columns.
-/
import proofs.«169278_g76141180224082_cont_9to1_m_266_16_alg».proof.Proof.Gen.ReferenceIdeal.Read
import proofs.«169278_g76141180224082_cont_9to1_m_266_16_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's result, as the generated stages state it, is the specification's function of the arguments. -/
theorem result_eq (x0 : (⟨S10000x256, .f32⟩ : BufTy).Contents (Elt Ideal)) (x1 : (⟨S10000x10000, .f32⟩ : BufTy).Contents (Elt Ideal))
    (x2 : (⟨S256x256, .f32⟩ : BufTy).Contents (Elt Ideal)) :
    val_main_v1 (F := Ideal) x0 x1 x2 = Cert.Spec.graphConv x0 x1 x2 := by
  funext i
  rw [val_main_v1_apply]
  unfold Cert.Spec.graphConv
  refine Finset.sum_congr rfl fun k _ => ?_
  have e1 : lidx_main_v1 i k = ix2 (i 0 : Fin 10000) k :=
    funext fun a => Fin.ext (by match a with | ⟨0, _⟩ => rfl | ⟨1, _⟩ => rfl)
  rw [e1, val_main_v0_apply]
  unfold Cert.Spec.support
  refine congrArg _ (Finset.sum_congr rfl fun j _ => ?_)
  have e2 : lidx_main_v0 (ridx_main_v1 i k) j = ix2 k j :=
    funext fun a => Fin.ext (by match a with | ⟨0, _⟩ => rfl | ⟨1, _⟩ => rfl)
  have e3 : ridx_main_v0 (ridx_main_v1 i k) j = ix2 j (i 1 : Fin 256) :=
    funext fun a => Fin.ext (by match a with | ⟨0, _⟩ => rfl | ⟨1, _⟩ => rfl)
  rw [e2, e3]
  rfl

end Cert.ReferenceIdeal.RefValue

end
-- ==== Proof.lean ====
/-
  The certificate of the fused graph-convolution kernel against its reference: out = adj · (x · w).

  The kernel runs a grid of 25 points. The first point multiplies features by weights into a scratch that every later
  point reads; each point multiplies two row blocks of the adjacency matrix (two windows of the one array) by the
  scratch and stores the two products into the halves of its output block. The reference is two host products. Over
  the extended reals both are the nested sum  ∑ k, adj[r, k] · (∑ j, x[k, j] · w[j, q]),  with the inner product formed
  first on both sides: the claim needs no reassociation and never uses that the inputs are finite.

  The three frames: each kernel program runs to the end, faults nowhere and leaves its arguments unchanged (the region's
  frame, with the adjacency buffer's share dealt between its two windows); the reference's frame is its run with the result dropped.
  The idealization rewrote nothing, so `preserves` is trivial. `algebraic` puts the two runs side by side at the
  specification's function of the arguments.
-/
import proofs.«169278_g76141180224082_cont_9to1_m_266_16_alg».proof.Defs
import proofs.«169278_g76141180224082_cont_9to1_m_266_16_alg».proof.Proof.Gen.Kernel
import proofs.«169278_g76141180224082_cont_9to1_m_266_16_alg».proof.Proof.Gen.KernelIdeal
import proofs.«169278_g76141180224082_cont_9to1_m_266_16_alg».proof.Proof.Gen.ReferenceIdeal
import proofs.«169278_g76141180224082_cont_9to1_m_266_16_alg».proof.Proof.Gen.Pre_finite_inputs
import proofs.«169278_g76141180224082_cont_9to1_m_266_16_alg».proof.Proof.Gen.ReferenceIdeal.Run
import proofs.«169278_g76141180224082_cont_9to1_m_266_16_alg».proof.Proof.Gen.ReferenceIdeal.Read
import proofs.«169278_g76141180224082_cont_9to1_m_266_16_alg».proof.Proof.WordRun
import proofs.«169278_g76141180224082_cont_9to1_m_266_16_alg».proof.Proof.IdealResult
import proofs.«169278_g76141180224082_cont_9to1_m_266_16_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Region.frame m ρ

theorem frame_ki : Cert.frame_KernelIdeal := fun m ρ _ => Cert.KernelIdeal.Region.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the graph convolution of arguments that agree. -/
theorem algebraic : Cert.algebraic_KernelIdeal_ReferenceIdeal := by
  intro m ρ m' ρ' _ hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
